-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S100000x48 : Shape := ⟨2, ![100000, 48]⟩
abbrev S2000x48 : Shape := ⟨2, ![2000, 48]⟩
abbrev S100000x384 : Shape := ⟨2, ![100000, 384]⟩
abbrev S100000x64 : Shape := ⟨2, ![100000, 64]⟩
abbrev S64x128 : Shape := ⟨2, ![64, 128]⟩
abbrev S128 : Shape := ⟨1, ![128]⟩
abbrev S128x48 : Shape := ⟨2, ![128, 48]⟩
abbrev S48 : Shape := ⟨1, ![48]⟩
abbrev S384x256 : Shape := ⟨2, ![384, 256]⟩
abbrev S256 : Shape := ⟨1, ![256]⟩
abbrev S256x48 : Shape := ⟨2, ![256, 48]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S2000x48 : S_.BroadcastsInDim S2000x48 (![] : Fin 0 → Fin S2000x48.rank)
  reducesTo_S2000x48_S_d0_1 : S2000x48.ReducesTo [0, 1] S_
  bcast_S_S100000x384 : S_.BroadcastsInDim S100000x384 (![] : Fin 0 → Fin S100000x384.rank)
  reducesTo_S100000x384_S_d0_1 : S100000x384.ReducesTo [0, 1] S_
  bcast_S_S100000x64 : S_.BroadcastsInDim S100000x64 (![] : Fin 0 → Fin S100000x64.rank)
  reducesTo_S100000x64_S_d0_1 : S100000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x48 : S_.BroadcastsInDim S128x48 (![] : Fin 0 → Fin S128x48.rank)
  reducesTo_S128x48_S_d0_1 : S128x48.ReducesTo [0, 1] S_
  bcast_S_S48 : S_.BroadcastsInDim S48 (![] : Fin 0 → Fin S48.rank)
  reducesTo_S48_S_d0 : S48.ReducesTo [0] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x48 : S_.BroadcastsInDim S256x48 (![] : Fin 0 → Fin S256x48.rank)
  reducesTo_S256x48_S_d0_1 : S256x48.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S256 .f32) (main_arg16 : FVec F S256x48 .f32) (main_arg17 : FVec F S48 .f32) (main_v48 : IVec S_ 1) (main_v49 : FVec F S384x256 .f32) (main_v50 : FVec F S384x256 .f32) : IVec S_ 1 :=
  let main_v51 : IVec S384x256 1 := cmpf .olt main_v49 main_v50
  let main_c_19 : IVec S_ 1 := constantI S_ 1 1#1
  let main_v52 : IVec S_ 1 := (fun x v => Host.reduce IntOp.andi x v reducesTo_S384x256_S_d0_1 h_S_) main_v51 main_c_19
  let main_v53 : IVec S_ 1 := andi main_v48 main_v52
  let main_v54 : FVec F S256 .f32 := Host.absf main_arg15
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x48 .f32 := Host.absf main_arg16
  let main_cst_22 : FVec F S_ .f32 := constant S_ .f32 0x7F800000#32
  let main_v60 : FVec F S256x48 .f32 := broadcastInDim S256x48 ![] bcast_S_S256x48 main_cst_22
  let main_v61 : IVec S256x48 1 := cmpf .olt main_v59 main_v60
  let main_c_23 : IVec S_ 1 := constantI S_ 1 1#1
  let main_v62 : IVec S_ 1 := (fun x v => Host.reduce IntOp.andi x v reducesTo_S256x48_S_d0_1 h_S_) main_v61 main_c_23
  let main_v63 : IVec S_ 1 := andi main_v58 main_v62
  let main_v64 : FVec F S48 .f32 := Host.absf main_arg17
  let main_cst_24 : FVec F S_ .f32 := constant S_ .f32 0x7F800000#32
  let main_v65 : FVec F S48 .f32 := broadcastInDim S48 ![] bcast_S_S48 main_cst_24
  let main_v66 : IVec S48 1 := cmpf .olt main_v64 main_v65
  let main_c_25 : IVec S_ 1 := constantI S_ 1 1#1
  let main_v67 : IVec S_ 1 := (fun x v => Host.reduce IntOp.andi x v reducesTo_S48_S_d0 h_S_) main_v66 main_c_25
  fn_part4 (F := F) main_v63 main_v67

def fn_part2 {F : FTy → Type} [FloatOps F] (main_arg11 : FVec F S128 .f32) (main_arg12 : FVec F S128x48 .f32) (main_arg13 : FVec F S48 .f32) (main_arg14 : FVec F S384x256 .f32) (main_arg15 : FVec F S256 .f32) (main_arg16 : FVec F S256x48 .f32) (main_arg17 : FVec F S48 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x48 .f32 := Host.absf main_arg12
  let main_cst_14 : FVec F S_ .f32 := constant S_ .f32 0x7F800000#32
  let main_v40 : FVec F S128x48 .f32 := broadcastInDim S128x48 ![] bcast_S_S128x48 main_cst_14
  let main_v41 : IVec S128x48 1 := cmpf .olt main_v39 main_v40
  let main_c_15 : IVec S_ 1 := constantI S_ 1 1#1
  let main_v42 : IVec S_ 1 := (fun x v => Host.reduce IntOp.andi x v reducesTo_S128x48_S_d0_1 h_S_) main_v41 main_c_15
  let main_v43 : IVec S_ 1 := andi main_v38 main_v42
  let main_v44 : FVec F S48 .f32 := Host.absf main_arg13
  let main_cst_16 : FVec F S_ .f32 := constant S_ .f32 0x7F800000#32
  let main_v45 : FVec F S48 .f32 := broadcastInDim S48 ![] bcast_S_S48 main_cst_16
  let main_v46 : IVec S48 1 := cmpf .olt main_v44 main_v45
  let main_c_17 : IVec S_ 1 := constantI S_ 1 1#1
  let main_v47 : IVec S_ 1 := (fun x v => Host.reduce IntOp.andi x v reducesTo_S48_S_d0 h_S_) main_v46 main_c_17
  let main_v48 : IVec S_ 1 := andi main_v43 main_v47
  let main_v49 : FVec F S384x256 .f32 := Host.absf main_arg14
  let main_cst_18 : FVec F S_ .f32 := constant S_ .f32 0x7F800000#32
  let main_v50 : FVec F S384x256 .f32 := broadcastInDim S384x256 ![] bcast_S_S384x256 main_cst_18
  fn_part3 (F := F) main_arg15 main_arg16 main_arg17 main_v48 main_v49 main_v50

def fn_part1 {F : FTy → Type} [FloatOps F] (main_arg8 : FVec F S100000x384 .f32) (main_arg9 : FVec F S100000x64 .f32) (main_arg10 : FVec F S64x128 .f32) (main_arg11 : FVec F S128 .f32) (main_arg12 : FVec F S128x48 .f32) (main_arg13 : FVec F S48 .f32) (main_arg14 : FVec F S384x256 .f32) (main_arg15 : FVec F S256 .f32) (main_arg16 : FVec F S256x48 .f32) (main_arg17 : FVec F S48 .f32) (main_v13 : IVec S_ 1) (main_v16 : IVec S2000x48 1) : IVec S_ 1 :=
  let main_c_5 : IVec S_ 1 := constantI S_ 1 1#1
  let main_v17 : IVec S_ 1 := (fun x v => Host.reduce IntOp.andi x v reducesTo_S2000x48_S_d0_1 h_S_) main_v16 main_c_5
  let main_v18 : IVec S_ 1 := andi main_v13 main_v17
  let main_v19 : FVec F S100000x384 .f32 := Host.absf main_arg8
  let main_cst_6 : FVec F S_ .f32 := constant S_ .f32 0x7F800000#32
  let main_v20 : FVec F S100000x384 .f32 := broadcastInDim S100000x384 ![] bcast_S_S100000x384 main_cst_6
  let main_v21 : IVec S100000x384 1 := cmpf .olt main_v19 main_v20
  let main_c_7 : IVec S_ 1 := constantI S_ 1 1#1
  let main_v22 : IVec S_ 1 := (fun x v => Host.reduce IntOp.andi x v reducesTo_S100000x384_S_d0_1 h_S_) main_v21 main_c_7
  let main_v23 : IVec S_ 1 := andi main_v18 main_v22
  let main_v24 : FVec F S100000x64 .f32 := Host.absf main_arg9
  let main_cst_8 : FVec F S_ .f32 := constant S_ .f32 0x7F800000#32
  let main_v25 : FVec F S100000x64 .f32 := broadcastInDim S100000x64 ![] bcast_S_S100000x64 main_cst_8
  let main_v26 : IVec S100000x64 1 := cmpf .olt main_v24 main_v25
  let main_c_9 : IVec S_ 1 := constantI S_ 1 1#1
  let main_v27 : IVec S_ 1 := (fun x v => Host.reduce IntOp.andi x v reducesTo_S100000x64_S_d0_1 h_S_) main_v26 main_c_9
  let main_v28 : IVec S_ 1 := andi main_v23 main_v27
  let main_v29 : FVec F S64x128 .f32 := Host.absf main_arg10
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : IVec S262144 32) (main_arg1 : IVec S262144 32) (main_arg2 : IVec S262144 32) (main_arg3 : IVec S262144 32) (main_arg4 : FVec F S100000x48 .f32) (main_arg5 : FVec F S100000x48 .f32) (main_arg6 : FVec F S2000x48 .f32) (main_arg7 : FVec F S2000x48 .f32) (main_arg8 : FVec F S100000x384 .f32) (main_arg9 : FVec F S100000x64 .f32) (main_arg10 : FVec F S64x128 .f32) (main_arg11 : FVec F S128 .f32) (main_arg12 : FVec F S128x48 .f32) (main_arg13 : FVec F S48 .f32) (main_arg14 : FVec F S384x256 .f32) (main_arg15 : FVec F S256 .f32) (main_arg16 : FVec F S256x48 .f32) (main_arg17 : FVec F S48 .f32) : IVec S_ 1 :=
  let main_v0 : FVec F S100000x48 .f32 := Host.absf main_arg4
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S100000x48 .f32 := Host.absf main_arg5
  let main_cst_0 : FVec F S_ .f32 := constant S_ .f32 0x7F800000#32
  let main_v5 : FVec F S100000x48 .f32 := broadcastInDim S100000x48 ![] bcast_S_S100000x48 main_cst_0
  let main_v6 : IVec S100000x48 1 := cmpf .olt main_v4 main_v5
  let main_c_1 : IVec S_ 1 := constantI S_ 1 1#1
  let main_v7 : IVec S_ 1 := (fun x v => Host.reduce IntOp.andi x v reducesTo_S100000x48_S_d0_1 h_S_) main_v6 main_c_1
  let main_v8 : IVec S_ 1 := andi main_v3 main_v7
  let main_v9 : FVec F S2000x48 .f32 := Host.absf main_arg6
  let main_cst_2 : FVec F S_ .f32 := constant S_ .f32 0x7F800000#32
  let main_v10 : FVec F S2000x48 .f32 := broadcastInDim S2000x48 ![] bcast_S_S2000x48 main_cst_2
  let main_v11 : IVec S2000x48 1 := cmpf .olt main_v9 main_v10
  let main_c_3 : IVec S_ 1 := constantI S_ 1 1#1
  let main_v12 : IVec S_ 1 := (fun x v => Host.reduce IntOp.andi x v reducesTo_S2000x48_S_d0_1 h_S_) main_v11 main_c_3
  let main_v13 : IVec S_ 1 := andi main_v8 main_v12
  let main_v14 : FVec F S2000x48 .f32 := Host.absf main_arg7
  let main_cst_4 : FVec F S_ .f32 := constant S_ .f32 0x7F800000#32
  let main_v15 : FVec F S2000x48 .f32 := broadcastInDim S2000x48 ![] bcast_S_S2000x48 main_cst_4
  let main_v16 : IVec S2000x48 1 := cmpf .olt main_v14 main_v15
  fn_part1 (F := F) main_arg8 main_arg9 main_arg10 main_arg11 main_arg12 main_arg13 main_arg14 main_arg15 main_arg16 main_arg17 main_v13 main_v16
-- ==== Kernel.lean ====
abbrev S262144 : Shape := ⟨1, ![262144]⟩
abbrev S100000x48 : Shape := ⟨2, ![100000, 48]⟩
abbrev S2000x48 : Shape := ⟨2, ![2000, 48]⟩
abbrev S100000x384 : Shape := ⟨2, ![100000, 384]⟩
abbrev S100000x64 : Shape := ⟨2, ![100000, 64]⟩
abbrev S64x128 : Shape := ⟨2, ![64, 128]⟩
abbrev S128 : Shape := ⟨1, ![128]⟩
abbrev S128x48 : Shape := ⟨2, ![128, 48]⟩
abbrev S48 : Shape := ⟨1, ![48]⟩
abbrev S384x256 : Shape := ⟨2, ![384, 256]⟩
abbrev S256 : Shape := ⟨1, ![256]⟩
abbrev S256x48 : Shape := ⟨2, ![256, 48]⟩
abbrev S1x128 : Shape := ⟨2, ![1, 128]⟩
abbrev S1x48 : Shape := ⟨2, ![1, 48]⟩
abbrev S1x256 : Shape := ⟨2, ![1, 256]⟩
abbrev S2000x64 : Shape := ⟨2, ![2000, 64]⟩
abbrev S2000x384 : Shape := ⟨2, ![2000, 384]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩
abbrev S_ : Shape := ⟨0, ![]⟩
abbrev S262144x1 : Shape := ⟨2, ![262144, 1]⟩
abbrev S262144x48 : Shape := ⟨2, ![262144, 48]⟩
abbrev S4096x48 : Shape := ⟨2, ![4096, 48]⟩
abbrev S4096 : Shape := ⟨1, ![4096]⟩
abbrev S4096x1 : Shape := ⟨2, ![4096, 1]⟩
abbrev S262144x2 : Shape := ⟨2, ![262144, 2]⟩

abbrev nBuf : Space → Nat
  | .hbm => 91
  | .vmem => 24
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .i32⟩
  | .hbm, ⟨3, _⟩ => ⟨S262144, .i32⟩
  | .hbm, ⟨4, _⟩ => ⟨S100000x48, .f32⟩
  | .hbm, ⟨5, _⟩ => ⟨S100000x48, .f32⟩
  | .hbm, ⟨6, _⟩ => ⟨S2000x48, .f32⟩
  | .hbm, ⟨7, _⟩ => ⟨S2000x48, .f32⟩
  | .hbm, ⟨8, _⟩ => ⟨S100000x384, .f32⟩
  | .hbm, ⟨9, _⟩ => ⟨S100000x64, .f32⟩
  | .hbm, ⟨10, _⟩ => ⟨S64x128, .f32⟩
  | .hbm, ⟨11, _⟩ => ⟨S128, .f32⟩
  | .hbm, ⟨12, _⟩ => ⟨S128x48, .f32⟩
  | .hbm, ⟨13, _⟩ => ⟨S48, .f32⟩
  | .hbm, ⟨14, _⟩ => ⟨S384x256, .f32⟩
  | .hbm, ⟨15, _⟩ => ⟨S256, .f32⟩
  | .hbm, ⟨16, _⟩ => ⟨S256x48, .f32⟩
  | .hbm, ⟨17, _⟩ => ⟨S48, .f32⟩
  | .hbm, ⟨18, _⟩ => ⟨S1x128, .f32⟩
  | .hbm, ⟨19, _⟩ => ⟨S1x48, .f32⟩
  | .hbm, ⟨20, _⟩ => ⟨S1x256, .f32⟩
  | .hbm, ⟨21, _⟩ => ⟨S1x48, .f32⟩
  | .hbm, ⟨22, _⟩ => ⟨S100000x48, .f32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S262144x48, .f32⟩
  | .hbm, ⟨32, _⟩ => ⟨S_, .i32⟩
  | .hbm, ⟨33, _⟩ => ⟨S262144, .i32⟩
  | .hbm, ⟨34, _⟩ => ⟨S262144, .i1⟩
  | .hbm, ⟨35, _⟩ => ⟨S_, .i32⟩
  | .hbm, ⟨36, _⟩ => ⟨S262144, .i32⟩
  | .hbm, ⟨37, _⟩ => ⟨S262144, .i32⟩
  | .hbm, ⟨38, _⟩ => ⟨S262144, .i32⟩
  | .hbm, ⟨39, _⟩ => ⟨S262144x1, .i32⟩
  | .hbm, ⟨40, _⟩ => ⟨S262144x48, .f32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S262144x48, .f32⟩
  | .hbm, ⟨50, _⟩ => ⟨S_, .i32⟩
  | .hbm, ⟨51, _⟩ => ⟨S262144, .i32⟩
  | .hbm, ⟨52, _⟩ => ⟨S262144, .i1⟩
  | .hbm, ⟨53, _⟩ => ⟨S_, .i32⟩
  | .hbm, ⟨54, _⟩ => ⟨S262144, .i32⟩
  | .hbm, ⟨55, _⟩ => ⟨S262144, .i32⟩
  | .hbm, ⟨56, _⟩ => ⟨S262144, .i32⟩
  | .hbm, ⟨57, _⟩ => ⟨S262144x1, .i32⟩
  | .hbm, ⟨58, _⟩ => ⟨S262144x48, .f32⟩
  | .hbm, ⟨59, _⟩ => ⟨S262144x48, .f32⟩
  | .hbm, ⟨60, _⟩ => ⟨S_, .f32⟩
  | .hbm, ⟨61, _⟩ => ⟨S262144x48, .f32⟩
  | .hbm, ⟨62, _⟩ => ⟨S262144x48, .f32⟩
  | .hbm, ⟨63, _⟩ => ⟨S_, .i32⟩
  | .hbm, ⟨64, _⟩ => ⟨S262144, .i32⟩
  | .hbm, ⟨65, _⟩ => ⟨S262144, .i1⟩
  | .hbm, ⟨66, _⟩ => ⟨S_, .i32⟩
  | .hbm, ⟨67, _⟩ => ⟨S262144, .i32⟩
  | .hbm, ⟨68, _⟩ => ⟨S262144, .i32⟩
  | .hbm, ⟨69, _⟩ => ⟨S262144, .i32⟩
  | .hbm, ⟨70, _⟩ => ⟨S262144x1, .i32⟩
  | .hbm, ⟨71, _⟩ => ⟨S262144x48, .f32⟩
  | .hbm, ⟨72, _⟩ => ⟨S_, .i32⟩
  | .hbm, ⟨73, _⟩ => ⟨S262144, .i32⟩
  | .hbm, ⟨74, _⟩ => ⟨S262144, .i1⟩
  | .hbm, ⟨75, _⟩ => ⟨S_, .i32⟩
  | .hbm, ⟨76, _⟩ => ⟨S262144, .i32⟩
  | .hbm, ⟨77, _⟩ => ⟨S262144, .i32⟩
  | .hbm, ⟨78, _⟩ => ⟨S262144, .i32⟩
  | .hbm, ⟨79, _⟩ => ⟨S262144x1, .i32⟩
  | .hbm, ⟨80, _⟩ => ⟨S262144x48, .f32⟩
  | .hbm, ⟨81, _⟩ => ⟨S262144x48, .f32⟩
  | .hbm, ⟨82, _⟩ => ⟨S_, .f32⟩
  | .hbm, ⟨83, _⟩ => ⟨S262144x48, .f32⟩
  | .hbm, ⟨84, _⟩ => ⟨S262144x48, .f32⟩
  | .hbm, ⟨85, _⟩ => ⟨S262144x48, .f32⟩
  | .hbm, ⟨86, _⟩ => ⟨S262144, .f32⟩
  | .hbm, ⟨87, _⟩ => ⟨S262144, .f32⟩
  | .hbm, ⟨88, _⟩ => ⟨S262144x1, .f32⟩
  | .hbm, ⟨89, _⟩ => ⟨S262144x1, .f32⟩
  | .hbm, ⟨90, _⟩ => ⟨S262144x2, .f32⟩
  | .local _ .vmem, ⟨0, _⟩ => ⟨S2000x64, .f32⟩
  | .local _ .vmem, ⟨1, _⟩ => ⟨S2000x64, .f32⟩
  | .local _ .vmem, ⟨2, _⟩ => ⟨S2000x384, .f32⟩
  | .local _ .vmem, ⟨3, _⟩ => ⟨S2000x384, .f32⟩
  | .local _ .vmem, ⟨4, _⟩ => ⟨S64x128, .f32⟩
  | .local _ .vmem, ⟨5, _⟩ => ⟨S1x128, .f32⟩
  | .local _ .vmem, ⟨6, _⟩ => ⟨S128x48, .f32⟩
  | .local _ .vmem, ⟨7, _⟩ => ⟨S1x48, .f32⟩
  | .local _ .vmem, ⟨8, _⟩ => ⟨S384x256, .f32⟩
  | .local _ .vmem, ⟨9, _⟩ => ⟨S1x256, .f32⟩
  | .local _ .vmem, ⟨10, _⟩ => ⟨S256x48, .f32⟩
  | .local _ .vmem, ⟨11, _⟩ => ⟨S1x48, .f32⟩
  | .local _ .vmem, ⟨12, _⟩ => ⟨S2000x48, .f32⟩
  | .local _ .vmem, ⟨13, _⟩ => ⟨S2000x48, .f32⟩
  | .local _ .vmem, ⟨14, _⟩ => ⟨S4096x48, .f32⟩
  | .local _ .vmem, ⟨15, _⟩ => ⟨S4096x48, .f32⟩
  | .local _ .vmem, ⟨16, _⟩ => ⟨S4096x48, .f32⟩
  | .local _ .vmem, ⟨17, _⟩ => ⟨S4096x48, .f32⟩
  | .local _ .vmem, ⟨18, _⟩ => ⟨S4096x48, .f32⟩
  | .local _ .vmem, ⟨19, _⟩ => ⟨S4096x48, .f32⟩
  | .local _ .vmem, ⟨20, _⟩ => ⟨S4096, .f32⟩
  | .local _ .vmem, ⟨21, _⟩ => ⟨S4096, .f32⟩
  | .local _ .vmem, ⟨22, _⟩ => ⟨S4096, .f32⟩
  | .local _ .vmem, ⟨23, _⟩ => ⟨S4096, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_9 : Ref sig .tc := ⟨.hbm, 72, rfl⟩
abbrev main_v43 : Ref sig .tc := ⟨.hbm, 73, rfl⟩
abbrev main_v44 : Ref sig .tc := ⟨.hbm, 74, rfl⟩
abbrev main_c_10 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54_0 : Ref sig .tc := ⟨.hbm, 86, rfl⟩
abbrev main_v54_1 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x48 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x48 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4096x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  shapeCasts_S48_S1x48 : S48.ShapeCasts S1x48
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  inb_S2000x384_S2000x384_0_0 : ∀ a, (![0, 0] : Fin 2 → Nat) a + S2000x384.size a ≤ S2000x384.size a
  h_S2000x384 : 0 < S2000x384.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x48_S128x48_0_0 : ∀ a, (![0, 0] : Fin 2 → Nat) a + S128x48.size a ≤ S128x48.size a
  h_S128x48 : 0 < S128x48.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  inb_S384x256_S384x256_0_0 : ∀ a, (![0, 0] : Fin 2 → Nat) a + S384x256.size a ≤ S384x256.size a
  h_S384x256 : 0 < S384x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x48_S256x48_0_0 : ∀ a, (![0, 0] : Fin 2 → Nat) a + S256x48.size a ≤ S256x48.size a
  h_S256x48 : 0 < S256x48.numel
  bitsLt_bf16_f32 : FTy.bits .bf16 < FTy.bits .f32
  broadcasts_S1x128_S2000x128 : S1x128.Broadcasts S2000x128
  broadcasts_S1x48_S2000x48 : S1x48.Broadcasts S2000x48
  broadcasts_S1x256_S2000x256 : S1x256.Broadcasts S2000x256
  reduces_S2000x48_S2000 : S2000x48.Reduces [1] S2000
  shapeCasts_S2000_S2000x1 : S2000.ShapeCasts S2000x1
  broadcasts_S2000x1_S2000x48 : S2000x1.Broadcasts S2000x48
  inb_S2000x48_S2000x48_0_0 : ∀ a, (![0, 0] : Fin 2 → Nat) a + S2000x48.size a ≤ S2000x48.size a
  h_S2000x48 : 0 < S2000x48.numel
  bcast_S_S262144 : S_.BroadcastsInDim S262144 (![] : Fin 0 → Fin S262144.rank)
  bcast_S262144_S262144x1_0 : S262144.BroadcastsInDim S262144x1 (![0] : Fin 1 → Fin S262144x1.rank)
  bcast_S_S262144x48 : S_.BroadcastsInDim S262144x48 (![] : Fin 0 → Fin S262144x48.rank)
  inb_S4096x48_S4096x48_0_0 : ∀ a, (![0, 0] : Fin 2 → Nat) a + S4096x48.size a ≤ S4096x48.size a
  h_S4096x48 : 0 < S4096x48.numel
  shapeCasts_S4096x48_S4096x48 : S4096x48.ShapeCasts S4096x48
  reduces_S4096x48_S4096 : S4096x48.Reduces [1] S4096
  shapeCasts_S4096_S4096x1 : S4096.ShapeCasts S4096x1
  broadcasts_S4096x1_S4096x48 : S4096x1.Broadcasts S4096x48
  inb_S4096_S4096_0 : ∀ a, (![0] : Fin 1 → Nat) a + S4096.size a ≤ S4096.size a
  h_S4096 : 0 < S4096.numel
  concatenates_S262144x1_S262144x1_S262144x2_d1 : Shape.Concatenates [S262144x1, S262144x1] S262144x2 1
  dot_S2000x64_S64x128_S2000x128_1_0_0_1_n_n_wf : DotDims.WF S2000x64 S64x128 S2000x128 [1] [0] [0] [1] [] []
  dot_S2000x128_S128x48_S2000x48_1_0_0_1_n_n_wf : DotDims.WF S2000x128 S128x48 S2000x48 [1] [0] [0] [1] [] []
  dot_S2000x384_S384x256_S2000x256_1_0_0_1_n_n_wf : DotDims.WF S2000x384 S384x256 S2000x256 [1] [0] [0] [1] [] []
  dot_S2000x256_S256x48_S2000x48_1_0_0_1_n_n_wf : DotDims.WF S2000x256 S256x48 S2000x48 [1] [0] [0] [1] [] []
  gather_S100000x48_S262144x1_S262144x48_1_0_n_n_0_1_148_wf : GatherDims.WF S100000x48 S262144x1 S262144x48 [1] [0] [] [0] [] 1 ![1, 48]
  gather_S2000x48_S262144x1_S262144x48_1_0_n_n_0_1_148_wf : GatherDims.WF S2000x48 S262144x1 S262144x48 [1] [0] [] [0] [] 1 ![1, 48]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x384.size a ≤ S100000x384.size a
  hwx0_1 : ∀ i : grid0.Coords, EltTy.bits .f32 = 32 ∨ (Rect.block (s := S100000x384) S2000x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x48.size a ≤ S128x48.size a
  hwx0_4 : ∀ i : grid0.Coords, EltTy.bits .f32 = 32 ∨ (Rect.block (s := S128x48) S128x48.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x48.size a ≤ S1x48.size a
  hwx0_5 : ∀ i : grid0.Coords, EltTy.bits .f32 = 32 ∨ (Rect.block (s := S1x48) S1x48.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384x256.size a ≤ S384x256.size a
  hwx0_6 : ∀ i : grid0.Coords, EltTy.bits .f32 = 32 ∨ (Rect.block (s := S384x256) S384x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x48.size a ≤ S256x48.size a
  hwx0_8 : ∀ i : grid0.Coords, EltTy.bits .f32 = 32 ∨ (Rect.block (s := S256x48) S256x48.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x48.size a ≤ S1x48.size a
  hwx0_9 : ∀ i : grid0.Coords, EltTy.bits .f32 = 32 ∨ (Rect.block (s := S1x48) S1x48.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x48.size a ≤ S100000x48.size a
  hwx0_10 : ∀ i : grid0.Coords, EltTy.bits .f32 = 32 ∨ (Rect.block (s := S100000x48) S2000x48.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x48.size a ≤ S262144x48.size a
  hwx1_0 : ∀ i : grid1.Coords, EltTy.bits .f32 = 32 ∨ (Rect.block (s := S262144x48) S4096x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x48.size a ≤ S262144x48.size a
  hwx1_1 : ∀ i : grid1.Coords, EltTy.bits .f32 = 32 ∨ (Rect.block (s := S262144x48) S4096x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x48.size a ≤ S262144x48.size a
  hwx1_2 : ∀ i : grid1.Coords, EltTy.bits .f32 = 32 ∨ (Rect.block (s := S262144x48) S4096x48.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096.size a ≤ S262144.size a
  hwx1_3 : ∀ i : grid1.Coords, EltTy.bits .f32 = 32 ∨ (Rect.block (s := S262144) S4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096.size a ≤ S262144.size a
  hwx1_4 : ∀ i : grid1.Coords, EltTy.bits .f32 = 32 ∨ (Rect.block (s := S262144) S4096.size (cc1_transform_4 i) (hinb1_4 i)).WholeWords (EltTy.packing .f32)

variable [Facts₀]

def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x48_S2000x48_1_0_0_1_n_n : DotDims S2000x128 S128x48 S2000x48 where
  lhsContracting := [1]
  rhsContracting := [0]
  lhsNonContracting := [0]
  rhsNonContracting := [1]
  lhsBatch := []
  rhsBatch := []
  wf := dot_S2000x128_S128x48_S2000x48_1_0_0_1_n_n_wf
def dot_S2000x384_S384x256_S2000x256_1_0_0_1_n_n : DotDims S2000x384 S384x256 S2000x256 where
  lhsContracting := [1]
  rhsContracting := [0]
  lhsNonContracting := [0]
  rhsNonContracting := [1]
  lhsBatch := []
  rhsBatch := []
  wf := dot_S2000x384_S384x256_S2000x256_1_0_0_1_n_n_wf
def dot_S2000x256_S256x48_S2000x48_1_0_0_1_n_n : DotDims S2000x256 S256x48 S2000x48 where
  lhsContracting := [1]
  rhsContracting := [0]
  lhsNonContracting := [0]
  rhsNonContracting := [1]
  lhsBatch := []
  rhsBatch := []
  wf := dot_S2000x256_S256x48_S2000x48_1_0_0_1_n_n_wf
def gather_S100000x48_S262144x1_S262144x48_1_0_n_n_0_1_148 : GatherDims S100000x48 S262144x1 S262144x48 where
  offsetDims := [1]
  collapsedSliceDims := [0]
  operandBatchingDims := []
  startIndicesBatchingDims := []
  startIndexMap := [0]
  indexVectorDim := 1
  sliceSizes := ![1, 48]
  wf := gather_S100000x48_S262144x1_S262144x48_1_0_n_n_0_1_148_wf
def gather_S2000x48_S262144x1_S262144x48_1_0_n_n_0_1_148 : GatherDims S2000x48 S262144x1 S262144x48 where
  offsetDims := [1]
  collapsedSliceDims := [0]
  operandBatchingDims := []
  startIndicesBatchingDims := []
  startIndexMap := [0]
  indexVectorDim := 1
  sliceSizes := ![1, 48]
  wf := gather_S2000x48_S262144x1_S262144x48_1_0_n_n_0_1_148_wf

abbrev win0_0 : Pipeline.Window sig grid0 :=
  Pipeline.Window.ofSpec (Memref.whole main_arg9) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S2000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S128x48.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x48.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S384x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg16) S256x48.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x48.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S2000x48.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v53) S4096x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4096x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S4096x48.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54_0) S4096.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v54_1) S4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S262144 : Shape := ⟨1, ![262144]⟩
abbrev S100000x48 : Shape := ⟨2, ![100000, 48]⟩
abbrev S2000x48 : Shape := ⟨2, ![2000, 48]⟩
abbrev S100000x384 : Shape := ⟨2, ![100000, 384]⟩
abbrev S100000x64 : Shape := ⟨2, ![100000, 64]⟩
abbrev S64x128 : Shape := ⟨2, ![64, 128]⟩
abbrev S128 : Shape := ⟨1, ![128]⟩
abbrev S128x48 : Shape := ⟨2, ![128, 48]⟩
abbrev S48 : Shape := ⟨1, ![48]⟩
abbrev S384x256 : Shape := ⟨2, ![384, 256]⟩
abbrev S256 : Shape := ⟨1, ![256]⟩
abbrev S256x48 : Shape := ⟨2, ![256, 48]⟩
abbrev S_ : Shape := ⟨0, ![]⟩
abbrev S262144x1 : Shape := ⟨2, ![262144, 1]⟩
abbrev S262144x48 : Shape := ⟨2, ![262144, 48]⟩
abbrev S262144x64 : Shape := ⟨2, ![262144, 64]⟩
abbrev S262144x384 : Shape := ⟨2, ![262144, 384]⟩
abbrev S262144x128 : Shape := ⟨2, ![262144, 128]⟩
abbrev S1x128 : Shape := ⟨2, ![1, 128]⟩
abbrev S1x48 : Shape := ⟨2, ![1, 48]⟩
abbrev S262144x256 : Shape := ⟨2, ![262144, 256]⟩
abbrev S1x256 : Shape := ⟨2, ![1, 256]⟩
abbrev S262144x2 : Shape := ⟨2, ![262144, 2]⟩

abbrev nBuf : Space → Nat
  | .hbm => 202
  | .vmem => 0
  | .smem => 0
  | _ => 0

abbrev hbmTy0_0 (i : Nat) : BufTy := match i % 128 with
  | 0 => ⟨S262144, .i32⟩
  | 1 => ⟨S262144, .i32⟩
  | 2 => ⟨S262144, .i32⟩
  | 3 => ⟨S262144, .i32⟩
  | 4 => ⟨S100000x48, .f32⟩
  | 5 => ⟨S100000x48, .f32⟩
  | 6 => ⟨S2000x48, .f32⟩
  | 7 => ⟨S2000x48, .f32⟩
  | 8 => ⟨S100000x384, .f32⟩
  | 9 => ⟨S100000x64, .f32⟩
  | 10 => ⟨S64x128, .f32⟩
  | 11 => ⟨S128, .f32⟩
  | 12 => ⟨S128x48, .f32⟩
  | 13 => ⟨S48, .f32⟩
  | 14 => ⟨S384x256, .f32⟩
  | 15 => ⟨S256, .f32⟩
  | 16 => ⟨S256x48, .f32⟩
  | 17 => ⟨S48, .f32⟩
  | 18 => ⟨S_, .i32⟩
  | 19 => ⟨S262144, .i32⟩
  | 20 => ⟨S262144, .i1⟩
  | 21 => ⟨S_, .i32⟩
  | 22 => ⟨S262144, .i32⟩
  | 23 => ⟨S262144, .i32⟩
  | 24 => ⟨S262144, .i32⟩
  | 25 => ⟨S262144x1, .i32⟩
  | 26 => ⟨S262144x48, .f32⟩
  | 27 => ⟨S_, .i32⟩
  | 28 => ⟨S262144, .i32⟩
  | 29 => ⟨S262144, .i1⟩
  | 30 => ⟨S_, .i32⟩
  | 31 => ⟨S262144, .i32⟩
  | 32 => ⟨S262144, .i32⟩
  | 33 => ⟨S262144, .i32⟩
  | 34 => ⟨S262144x1, .i32⟩
  | 35 => ⟨S262144x48, .f32⟩
  | 36 => ⟨S262144x48, .f32⟩
  | 37 => ⟨S_, .f32⟩
  | 38 => ⟨S262144x48, .f32⟩
  | 39 => ⟨S262144x48, .f32⟩
  | 40 => ⟨S_, .i32⟩
  | 41 => ⟨S262144, .i32⟩
  | 42 => ⟨S262144, .i1⟩
  | 43 => ⟨S_, .i32⟩
  | 44 => ⟨S262144, .i32⟩
  | 45 => ⟨S262144, .i32⟩
  | 46 => ⟨S262144, .i32⟩
  | 47 => ⟨S262144x1, .i32⟩
  | 48 => ⟨S262144x48, .f32⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144x48, .f32⟩
  | 58 => ⟨S262144x48, .f32⟩
  | 59 => ⟨S_, .f32⟩
  | 60 => ⟨S262144x48, .f32⟩
  | 61 => ⟨S262144x48, .f32⟩
  | 62 => ⟨S262144x48, .f32⟩
  | 63 => ⟨S262144x48, .f32⟩
  | 64 => ⟨S_, .f32⟩
  | 65 => ⟨S262144, .f32⟩
  | 66 => ⟨S262144x1, .f32⟩
  | 67 => ⟨S_, .f32⟩
  | 68 => ⟨S262144x1, .f32⟩
  | 69 => ⟨S262144x1, .f32⟩
  | 70 => ⟨S262144x1, .f32⟩
  | 71 => ⟨S262144x48, .f32⟩
  | 72 => ⟨S262144x48, .f32⟩
  | 73 => ⟨S_, .i32⟩
  | 74 => ⟨S262144, .i32⟩
  | 75 => ⟨S262144, .i1⟩
  | 76 => ⟨S_, .i32⟩
  | 77 => ⟨S262144, .i32⟩
  | 78 => ⟨S262144, .i32⟩
  | 79 => ⟨S262144, .i32⟩
  | 80 => ⟨S262144x1, .i32⟩
  | 81 => ⟨S262144x64, .f32⟩
  | 82 => ⟨S_, .i32⟩
  | 83 => ⟨S262144, .i32⟩
  | 84 => ⟨S262144, .i1⟩
  | 85 => ⟨S_, .i32⟩
  | 86 => ⟨S262144, .i32⟩
  | 87 => ⟨S262144, .i32⟩
  | 88 => ⟨S262144, .i32⟩
  | 89 => ⟨S262144x1, .i32⟩
  | 90 => ⟨S262144x384, .f32⟩
  | 91 => ⟨S262144x128, .f32⟩
  | 92 => ⟨S1x128, .f32⟩
  | 93 => ⟨S262144x128, .f32⟩
  | 94 => ⟨S262144x128, .f32⟩
  | 95 => ⟨S_, .f32⟩
  | 96 => ⟨S262144x128, .f32⟩
  | 97 => ⟨S262144x128, .f32⟩
  | 98 => ⟨S262144x48, .f32⟩
  | 99 => ⟨S1x48, .f32⟩
  | 100 => ⟨S262144x48, .f32⟩
  | 101 => ⟨S262144x48, .f32⟩
  | 102 => ⟨S262144x256, .f32⟩
  | 103 => ⟨S1x256, .f32⟩
  | 104 => ⟨S262144x256, .f32⟩
  | 105 => ⟨S262144x256, .f32⟩
  | 106 => ⟨S_, .f32⟩
  | 107 => ⟨S262144x256, .f32⟩
  | 108 => ⟨S262144x256, .f32⟩
  | 109 => ⟨S262144x48, .f32⟩
  | 110 => ⟨S1x48, .f32⟩
  | 111 => ⟨S262144x48, .f32⟩
  | 112 => ⟨S262144x48, .f32⟩
  | 113 => ⟨S_, .f32⟩
  | 114 => ⟨S262144x48, .f32⟩
  | 115 => ⟨S262144x48, .f32⟩
  | 116 => ⟨S_, .f32⟩
  | 117 => ⟨S262144x48, .f32⟩
  | 118 => ⟨S262144x48, .f32⟩
  | 119 => ⟨S262144x48, .f32⟩
  | 120 => ⟨S262144x48, .f32⟩
  | 121 => ⟨S_, .f32⟩
  | 122 => ⟨S262144, .f32⟩
  | 123 => ⟨S262144x1, .f32⟩
  | 124 => ⟨S_, .f32⟩
  | 125 => ⟨S262144x1, .f32⟩
  | 126 => ⟨S262144x1, .f32⟩
  | 127 => ⟨S262144x1, .f32⟩
  | _ => ⟨S262144, .i32⟩

abbrev hbmTy0_1 (i : Nat) : BufTy := match i % 128 with
  | 0 => ⟨S262144x48, .f32⟩
  | 1 => ⟨S262144x48, .f32⟩
  | 2 => ⟨S_, .i32⟩
  | 3 => ⟨S262144, .i32⟩
  | 4 => ⟨S262144, .i1⟩
  | 5 => ⟨S_, .i32⟩
  | 6 => ⟨S262144, .i32⟩
  | 7 => ⟨S262144, .i32⟩
  | 8 => ⟨S262144, .i32⟩
  | 9 => ⟨S262144x1, .i32⟩
  | 10 => ⟨S262144x64, .f32⟩
  | 11 => ⟨S_, .i32⟩
  | 12 => ⟨S262144, .i32⟩
  | 13 => ⟨S262144, .i1⟩
  | 14 => ⟨S_, .i32⟩
  | 15 => ⟨S262144, .i32⟩
  | 16 => ⟨S262144, .i32⟩
  | 17 => ⟨S262144, .i32⟩
  | 18 => ⟨S262144x1, .i32⟩
  | 19 => ⟨S262144x384, .f32⟩
  | 20 => ⟨S262144x128, .f32⟩
  | 21 => ⟨S1x128, .f32⟩
  | 22 => ⟨S262144x128, .f32⟩
  | 23 => ⟨S262144x128, .f32⟩
  | 24 => ⟨S_, .f32⟩
  | 25 => ⟨S262144x128, .f32⟩
  | 26 => ⟨S262144x128, .f32⟩
  | 27 => ⟨S262144x48, .f32⟩
  | 28 => ⟨S1x48, .f32⟩
  | 29 => ⟨S262144x48, .f32⟩
  | 30 => ⟨S262144x48, .f32⟩
  | 31 => ⟨S262144x256, .f32⟩
  | 32 => ⟨S1x256, .f32⟩
  | 33 => ⟨S262144x256, .f32⟩
  | 34 => ⟨S262144x256, .f32⟩
  | 35 => ⟨S_, .f32⟩
  | 36 => ⟨S262144x256, .f32⟩
  | 37 => ⟨S262144x256, .f32⟩
  | 38 => ⟨S262144x48, .f32⟩
  | 39 => ⟨S1x48, .f32⟩
  | 40 => ⟨S262144x48, .f32⟩
  | 41 => ⟨S262144x48, .f32⟩
  | 42 => ⟨S_, .f32⟩
  | 43 => ⟨S262144x48, .f32⟩
  | 44 => ⟨S262144x48, .f32⟩
  | 45 => ⟨S_, .f32⟩
  | 46 => ⟨S262144x48, .f32⟩
  | 47 => ⟨S262144x48, .f32⟩
  | 48 => ⟨S262144x48, .f32⟩
  | 49 => ⟨S262144x48, .f32⟩
  | 50 => ⟨S_, .f32⟩
  | 51 => ⟨S262144, .f32⟩
  | 52 => ⟨S262144x1, .f32⟩
  | 53 => ⟨S_, .f32⟩
  | 54 => ⟨S262144x1, .f32⟩
  | 55 => ⟨S262144x1, .f32⟩
  | 56 => ⟨S262144x1, .f32⟩
  | 57 => ⟨S262144x48, .f32⟩
  | 58 => ⟨S262144x48, .f32⟩
  | 59 => ⟨S262144x48, .f32⟩
  | 60 => ⟨S_, .f32⟩
  | 61 => ⟨S262144, .f32⟩
  | 62 => ⟨S_, .f32⟩
  | 63 => ⟨S262144, .f32⟩
  | 64 => ⟨S262144, .f32⟩
  | 65 => ⟨S262144x48, .f32⟩
  | 66 => ⟨S_, .f32⟩
  | 67 => ⟨S262144, .f32⟩
  | 68 => ⟨S_, .f32⟩
  | 69 => ⟨S262144, .f32⟩
  | 70 => ⟨S262144, .f32⟩
  | 71 => ⟨S262144x1, .f32⟩
  | 72 => ⟨S262144x1, .f32⟩
  | 73 => ⟨S262144x2, .f32⟩
  | _ => ⟨S262144, .i32⟩

abbrev hbmTy (i : Nat) : BufTy := match i / 128 with
  | 0 => hbmTy0_0 i
  | 1 => hbmTy0_1 i
  | _ => ⟨S262144, .i32⟩

abbrev bufTy : (tb : Table) → Fin (tcTables nBuf tb) → BufTy
  | .hbm, ⟨i, _⟩ => hbmTy i
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_cst_9 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_10 : Ref sig .tc := ⟨.hbm, 73, rfl⟩
abbrev main_v43 : Ref sig .tc := ⟨.hbm, 74, rfl⟩
abbrev main_v44 : Ref sig .tc := ⟨.hbm, 75, rfl⟩
abbrev main_c_11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_12 : Ref sig .tc := ⟨.hbm, 82, rfl⟩
abbrev main_v50 : Ref sig .tc := ⟨.hbm, 83, rfl⟩
abbrev main_v51 : Ref sig .tc := ⟨.hbm, 84, rfl⟩
abbrev main_c_13 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call0_cst : Ref sig .tc := ⟨.hbm, 95, rfl⟩
abbrev main_call0_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_call1_cst : Ref sig .tc := ⟨.hbm, 106, rfl⟩
abbrev main_call1_v0 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_14 : Ref sig .tc := ⟨.hbm, 113, rfl⟩
abbrev main_v75 : Ref sig .tc := ⟨.hbm, 114, rfl⟩
abbrev main_v76 : Ref sig .tc := ⟨.hbm, 115, rfl⟩
abbrev main_cst_15 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_16 : Ref sig .tc := ⟨.hbm, 121, rfl⟩
abbrev main_v81 : Ref sig .tc := ⟨.hbm, 122, rfl⟩
abbrev main_v82 : Ref sig .tc := ⟨.hbm, 123, rfl⟩
abbrev main_cst_17 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_c_18 : Ref sig .tc := ⟨.hbm, 130, rfl⟩
abbrev main_v88 : Ref sig .tc := ⟨.hbm, 131, rfl⟩
abbrev main_v89 : Ref sig .tc := ⟨.hbm, 132, rfl⟩
abbrev main_c_19 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_c_20 : Ref sig .tc := ⟨.hbm, 139, rfl⟩
abbrev main_v95 : Ref sig .tc := ⟨.hbm, 140, rfl⟩
abbrev main_v96 : Ref sig .tc := ⟨.hbm, 141, rfl⟩
abbrev main_c_21 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_call2_cst : Ref sig .tc := ⟨.hbm, 152, rfl⟩
abbrev main_call2_v0 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_call3_cst : Ref sig .tc := ⟨.hbm, 163, rfl⟩
abbrev main_call3_v0 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_22 : Ref sig .tc := ⟨.hbm, 170, rfl⟩
abbrev main_v120 : Ref sig .tc := ⟨.hbm, 171, rfl⟩
abbrev main_v121 : Ref sig .tc := ⟨.hbm, 172, rfl⟩
abbrev main_cst_23 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_cst_24 : Ref sig .tc := ⟨.hbm, 178, rfl⟩
abbrev main_v126 : Ref sig .tc := ⟨.hbm, 179, rfl⟩
abbrev main_v127 : Ref sig .tc := ⟨.hbm, 180, rfl⟩
abbrev main_cst_25 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_26 : Ref sig .tc := ⟨.hbm, 188, rfl⟩
abbrev main_v134 : Ref sig .tc := ⟨.hbm, 189, rfl⟩
abbrev main_cst_27 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_28 : Ref sig .tc := ⟨.hbm, 194, rfl⟩
abbrev main_v138 : Ref sig .tc := ⟨.hbm, 195, rfl⟩
abbrev main_cst_29 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S262144x48 : S_.BroadcastsInDim S262144x48 (![] : Fin 0 → Fin S262144x48.rank)
  reducesTo_S262144x48_S262144_d1 : S262144x48.ReducesTo [1] S262144
  h_S_ : 0 < S_.numel
  bcast_S_S262144x1 : S_.BroadcastsInDim S262144x1 (![] : Fin 0 → Fin S262144x1.rank)
  bcast_S262144x1_S262144x48_0_1 : S262144x1.BroadcastsInDim S262144x48 (![0, 1] : Fin 2 → Fin S262144x48.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S48_S1x48_1 : S48.BroadcastsInDim S1x48 (![1] : Fin 1 → Fin S1x48.rank)
  bcast_S1x48_S262144x48_0_1 : S1x48.BroadcastsInDim S262144x48 (![0, 1] : Fin 2 → Fin S262144x48.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  concatenates_S262144x1_S262144x1_S262144x2_d1 : Shape.Concatenates [S262144x1, S262144x1] S262144x2 1
  gather_S100000x48_S262144x1_S262144x48_1_0_n_n_0_1_148_wf : GatherDims.WF S100000x48 S262144x1 S262144x48 [1] [0] [] [0] [] 1 ![1, 48]
  gather_S2000x48_S262144x1_S262144x48_1_0_n_n_0_1_148_wf : GatherDims.WF S2000x48 S262144x1 S262144x48 [1] [0] [] [0] [] 1 ![1, 48]
  gather_S100000x64_S262144x1_S262144x64_1_0_n_n_0_1_164_wf : GatherDims.WF S100000x64 S262144x1 S262144x64 [1] [0] [] [0] [] 1 ![1, 64]
  gather_S100000x384_S262144x1_S262144x384_1_0_n_n_0_1_1384_wf : GatherDims.WF S100000x384 S262144x1 S262144x384 [1] [0] [] [0] [] 1 ![1, 384]
  dot_S262144x64_S64x128_S262144x128_1_0_0_1_n_n_wf : DotDims.WF S262144x64 S64x128 S262144x128 [1] [0] [0] [1] [] []
  dot_S262144x128_S128x48_S262144x48_1_0_0_1_n_n_wf : DotDims.WF S262144x128 S128x48 S262144x48 [1] [0] [0] [1] [] []
  dot_S262144x384_S384x256_S262144x256_1_0_0_1_n_n_wf : DotDims.WF S262144x384 S384x256 S262144x256 [1] [0] [0] [1] [] []
  dot_S262144x256_S256x48_S262144x48_1_0_0_1_n_n_wf : DotDims.WF S262144x256 S256x48 S262144x48 [1] [0] [0] [1] [] []

variable [Facts₀]

def gather_S100000x48_S262144x1_S262144x48_1_0_n_n_0_1_148 : GatherDims S100000x48 S262144x1 S262144x48 where
  offsetDims := [1]
  collapsedSliceDims := [0]
  operandBatchingDims := []
  startIndicesBatchingDims := []
  startIndexMap := [0]
  indexVectorDim := 1
  sliceSizes := ![1, 48]
  wf := gather_S100000x48_S262144x1_S262144x48_1_0_n_n_0_1_148_wf
def gather_S2000x48_S262144x1_S262144x48_1_0_n_n_0_1_148 : GatherDims S2000x48 S262144x1 S262144x48 where
  offsetDims := [1]
  collapsedSliceDims := [0]
  operandBatchingDims := []
  startIndicesBatchingDims := []
  startIndexMap := [0]
  indexVectorDim := 1
  sliceSizes := ![1, 48]
  wf := gather_S2000x48_S262144x1_S262144x48_1_0_n_n_0_1_148_wf
def gather_S100000x64_S262144x1_S262144x64_1_0_n_n_0_1_164 : GatherDims S100000x64 S262144x1 S262144x64 where
  offsetDims := [1]
  collapsedSliceDims := [0]
  operandBatchingDims := []
  startIndicesBatchingDims := []
  startIndexMap := [0]
  indexVectorDim := 1
  sliceSizes := ![1, 64]
  wf := gather_S100000x64_S262144x1_S262144x64_1_0_n_n_0_1_164_wf
def gather_S100000x384_S262144x1_S262144x384_1_0_n_n_0_1_1384 : GatherDims S100000x384 S262144x1 S262144x384 where
  offsetDims := [1]
  collapsedSliceDims := [0]
  operandBatchingDims := []
  startIndicesBatchingDims := []
  startIndexMap := [0]
  indexVectorDim := 1
  sliceSizes := ![1, 384]
  wf := gather_S100000x384_S262144x1_S262144x384_1_0_n_n_0_1_1384_wf
def dot_S262144x64_S64x128_S262144x128_1_0_0_1_n_n : DotDims S262144x64 S64x128 S262144x128 where
  lhsContracting := [1]
  rhsContracting := [0]
  lhsNonContracting := [0]
  rhsNonContracting := [1]
  lhsBatch := []
  rhsBatch := []
  wf := dot_S262144x64_S64x128_S262144x128_1_0_0_1_n_n_wf
def dot_S262144x128_S128x48_S262144x48_1_0_0_1_n_n : DotDims S262144x128 S128x48 S262144x48 where
  lhsContracting := [1]
  rhsContracting := [0]
  lhsNonContracting := [0]
  rhsNonContracting := [1]
  lhsBatch := []
  rhsBatch := []
  wf := dot_S262144x128_S128x48_S262144x48_1_0_0_1_n_n_wf
def dot_S262144x384_S384x256_S262144x256_1_0_0_1_n_n : DotDims S262144x384 S384x256 S262144x256 where
  lhsContracting := [1]
  rhsContracting := [0]
  lhsNonContracting := [0]
  rhsNonContracting := [1]
  lhsBatch := []
  rhsBatch := []
  wf := dot_S262144x384_S384x256_S262144x256_1_0_0_1_n_n_wf
def dot_S262144x256_S256x48_S262144x48_1_0_0_1_n_n : DotDims S262144x256 S256x48 S262144x48 where
  lhsContracting := [1]
  rhsContracting := [0]
  lhsNonContracting := [0]
  rhsNonContracting := [1]
  lhsBatch := []
  rhsBatch := []
  wf := dot_S262144x256_S256x48_S262144x48_1_0_0_1_n_n_wf

class Facts : Prop extends Facts₀ where

variable [Facts]
-- ==== Proof.KernelRun.lean ====
/-
  The kernel program's run with its result named.

  The program is five segments: four reshapes of the bias vectors on the host, the book-encoding launch, the host's
  gathers and the user tower's sums, the similarity launch, and the host's pairing of the two similarity arrays into
  one two-column result. The buffer contents at each boundary are a fold from the launch memory (`W0 … W5` of the
  generated frame module); every weakly fair execution terminates with every buffer that outlives the launches at the
  last boundary's contents. Read at the result buffer this says what the program returns; read at the arguments, that
  they end as launched. The statement is for any float instance.
-/
import proofs.«164708_j16157666967605_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and every argument array as launched. -/
theorem run_result : θ_run defs (onTc (τ := τ) (main (F := F))) ⟨m, fun _ => 0, ρ⟩ (fun r => ∀ c : Dev nD,
      r.2.mem ((c.tc : Thread nD τ).loc main_v57) = W5 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v57 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c)⟩)

end Cert.KernelIdeal.Run

end
-- ==== Proof.Spec.lean ====
/-
  The mathematics both programs compute, one row at a time, on the extended reals.

  A book is encoded from its category row `c` (64 entries) and its text row `t` (384 entries): each goes through a
  two-layer tower — an affine layer, the rectifier `max(·, 0)`, a second affine layer into 48 entries —, the two
  results are combined as `3·cat + 1·txt`, and the combination is scaled to unit length: `v · (max(Σ v², ε))^(-1/2)`.
  A user row `u` (48 entries) is scaled to unit length in the same way, and its similarity to an encoded book `p` is the
  inner product `Σ û·p` divided by the temperature.

  Every function here takes a row as a function on `Fin n`, so that the same term describes a row of a block, a row of
  a whole table, and a row picked out of a table by an index. The literals are kept as the float words the programs
  carry; none is evaluated.
-/
import Idealize.ShloMosaic.PureOps.Ideal
import Idealize.ShloMosaic.Lib.ValueIdx

noncomputable section

open scoped BigOperators

namespace Cert.Spec

open Idealize.ShloMosaic

/-- The words of the five literals: zero, the two weights 3 and 1, the floor ε under the squared length, the temperature. -/
abbrev wZero : EReal := Ideal.ofBits .f32 0x00000000#32
abbrev wCat : EReal := Ideal.ofBits .f32 0x40400000#32
abbrev wTxt : EReal := Ideal.ofBits .f32 0x3F800000#32
abbrev wEps : EReal := Ideal.ofBits .f32 0x2B8CBCCC#32
abbrev wTemp : EReal := Ideal.ofBits .f32 0x3D4CCCCD#32

/-- The hidden layer of a tower: an affine map of the row followed by the rectifier. -/
def hidden {K H : Nat} (x : Fin K → EReal) (W : Fin K → Fin H → EReal) (b : Fin H → EReal) (j : Fin H) : EReal :=
  max ((∑ k : Fin K, x k * W k j) + b j) wZero

/-- The second layer of a tower: an affine map of the hidden row. -/
def layer2 {H E : Nat} (h : Fin H → EReal) (W : Fin H → Fin E → EReal) (b : Fin E → EReal) (e : Fin E) : EReal :=
  (∑ j : Fin H, h j * W j e) + b e

/-- The weighted combination of the two towers' results. -/
def combine {E : Nat} (a t : Fin E → EReal) (e : Fin E) : EReal := wCat * a e + wTxt * t e

/-- A row scaled by the reciprocal square root of its squared length, floored at ε. -/
def normalize {E : Nat} (v : Fin E → EReal) (e : Fin E) : EReal :=
  v e * Ideal.rsqrt (max (∑ e' : Fin E, v e' * v e') wEps)

/-- A book's encoding from its category row and its text row. -/
def encRow (c : Fin 64 → EReal) (t : Fin 384 → EReal)
    (Wc1 : Fin 64 → Fin 128 → EReal) (bc1 : Fin 128 → EReal) (Wc2 : Fin 128 → Fin 48 → EReal) (bc2 : Fin 48 → EReal)
    (Wt1 : Fin 384 → Fin 256 → EReal) (bt1 : Fin 256 → EReal) (Wt2 : Fin 256 → Fin 48 → EReal) (bt2 : Fin 48 → EReal) :
    Fin 48 → EReal :=
  normalize (combine (layer2 (hidden c Wc1 bc1) Wc2 bc2) (layer2 (hidden t Wt1 bt1) Wt2 bt2))

/-- The similarity of a user row to an encoded book row. -/
def simRow (u p : Fin 48 → EReal) : EReal :=
  Ideal.div (∑ e : Fin 48, normalize u e * p e) wTemp

end Cert.Spec

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.KernelRows.lean ====
/-
  What each kernel body stores, read one entry at a time, in the row functions of the specification.

  The book-encoding body holds 2000 rows of the category and text tables and the eight weight and bias arrays whole;
  entry (p, e) of what it stores is the encoding of row p of its two blocks, at e. The similarity body holds 4096 user
  rows and 4096 rows of each of the two gathered book tables; entry p of each of its two stores is the similarity of
  user row p to row p of that table. Nothing here depends on which rows of the whole arrays the blocks are.

  The matrix products are sums over the contracted index (the zero accumulator adds nothing), the lane sums are sums
  over the row, a bias row is read at its one row, and the reciprocal square root of a row's floored squared length
  is read back along the row it was computed from. Changes of float format are the identity on the extended reals.
-/
import proofs.«164708_j16157666967605_2_alg».proof.Proof.Gen.KernelIdeal.Frame
import proofs.«164708_j16157666967605_2_alg».proof.Proof.Spec
import proofs.«164708_j16157666967605_2_alg».proof.Proof.LibPlainDot
import proofs.«164708_j16157666967605_2_alg».proof.Proof.LibKeepdims
import Idealize.ShloMosaic.Lib.ValueLayout
import Idealize.ShloMosaic.Lib.Pipeline.Value

noncomputable section

open scoped BigOperators

namespace Cert.KernelIdeal.Rows

open Idealize.ShloMosaic Idealize.ShloMosaic.ValueIdx Cert.KernelIdeal Cert.KernelIdeal.Gen Cert.Spec

/-! ## Scaling the rows of a block to unit length -/

/-- The vector spelling of `x · rsqrt(max(Σ x², ε))` along the rows of an `[a, b]` block — lane sum, kept as a column,
    floored, reciprocal square root, spread back along the row — at entry `(p, e)` is row `p` normalized, at `e`. -/
theorem unitRows_apply {a b : Nat} (x : FVec Ideal ⟨2, ![a, b]⟩ .f32)
    (hr : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (e : Fin b) :
    mulf x (broadcastTo ⟨2, ![a, b]⟩ (rsqrt (maximumf
        (shapeCast ⟨2, ![a, 1]⟩ (multiReduction .add [1] ⟨1, ![a]⟩ (mulf x x) 0x00000000#32 hr hφ hacc) hc)
        (broadcast ⟨2, ![a, 1]⟩ (Scalar.ofBits .f32 0x2B8CBCCC#32)))) hb) (ix2 p e)
      = normalize (fun e' => x (ix2 p e')) e := by
  show x (ix2 p e) * broadcastTo ⟨2, ![a, b]⟩ _ hb (ix2 p e) = _
  rw [broadcastTo_a1_ab_apply]
  show x (ix2 p e) * Ideal.rsqrt (max (shapeCast ⟨2, ![a, 1]⟩ _ hc (ix2 p (0 : Fin 1))) wEps) = _
  rw [shapeCast_a_a1_apply]
  refine congrArg (fun s => x (ix2 p e) * Ideal.rsqrt (max s wEps)) (multiReduction_add_axis1_apply (mulf x x) hr hφ hacc p)

/-! ## The book-encoding body -/

/-- The text tower's hidden row. -/
theorem textHidden_apply (v1 : Vec Ideal S2000x384 .f32) (v8 : Vec Ideal S384x256 .f32) (v9 : Vec Ideal S1x256 .f32)
    (p : Fin 2000) (j : Fin 256) :
    k0_pay4 (F := Ideal) v1 v8 v9 (ix2 p j)
      = hidden (fun k => v1 (ix2 p k)) (fun k j => v8 (ix2 k j)) (fun j => v9 (ix2 (0 : Fin 1) j)) j := by
  unfold k0_pay4
  show max (matmul dot_S2000x384_S384x256_S2000x256_1_0_0_1_n_n none (truncf .bf16 v1 bitsLt_bf16_f32)
        (truncf .bf16 v8 bitsLt_bf16_f32) (constant (F := Ideal) S2000x256 .f32 0x00000000#32) (ix2 p j)
      + broadcastTo S2000x256 (shapeCast S1x256 v9 shapeCasts_S1x256_S1x256) broadcasts_S1x256_S2000x256 (ix2 p j)) wZero = _
  rw [PlainDot.matmul_zero_apply dot_S2000x384_S384x256_S2000x256_1_0_0_1_n_n rfl, broadcastTo_1b_ab_apply, shapeCast_self]
  rfl

/-- The category tower, both layers. -/
theorem catTower_apply (v0 : Vec Ideal S2000x64 .f32) (v2 : Vec Ideal S64x128 .f32) (v3 : Vec Ideal S1x128 .f32)
    (v5 : Vec Ideal S128x48 .f32) (v6 : Vec Ideal S1x48 .f32) (p : Fin 2000) (e : Fin 48) :
    k0_pay3 (F := Ideal) v0 v2 v3 v5 v6 (ix2 p e)
      = layer2 (hidden (fun k => v0 (ix2 p k)) (fun k j => v2 (ix2 k j)) (fun j => v3 (ix2 (0 : Fin 1) j)))
          (fun j e => v5 (ix2 j e)) (fun e => v6 (ix2 (0 : Fin 1) e)) e := by
  unfold k0_pay3
  -- the hidden block, as one vector
  let h : FVec Ideal S2000x128 .f32 := maximumf (addf (matmul dot_S2000x64_S64x128_S2000x128_1_0_0_1_n_n none
      (truncf .bf16 v0 bitsLt_bf16_f32) (truncf .bf16 v2 bitsLt_bf16_f32) (constant (F := Ideal) S2000x128 .f32 0x00000000#32))
      (broadcastTo S2000x128 (shapeCast S1x128 v3 shapeCasts_S1x128_S1x128) broadcasts_S1x128_S2000x128))
      (broadcast S2000x128 (Scalar.ofBits .f32 0x00000000#32))
  have hh : ∀ j : Fin 128, h (ix2 p j)
      = hidden (fun k => v0 (ix2 p k)) (fun k j => v2 (ix2 k j)) (fun j => v3 (ix2 (0 : Fin 1) j)) j := fun j => by
    show max (matmul dot_S2000x64_S64x128_S2000x128_1_0_0_1_n_n none (truncf .bf16 v0 bitsLt_bf16_f32)
          (truncf .bf16 v2 bitsLt_bf16_f32) (constant (F := Ideal) S2000x128 .f32 0x00000000#32) (ix2 p j)
        + broadcastTo S2000x128 (shapeCast S1x128 v3 shapeCasts_S1x128_S1x128) broadcasts_S1x128_S2000x128 (ix2 p j)) wZero = _
    rw [PlainDot.matmul_zero_apply dot_S2000x64_S64x128_S2000x128_1_0_0_1_n_n rfl, broadcastTo_1b_ab_apply, shapeCast_self]
    rfl
  show matmul dot_S2000x128_S128x48_S2000x48_1_0_0_1_n_n none (truncf .bf16 h bitsLt_bf16_f32)
        (truncf .bf16 v5 bitsLt_bf16_f32) (constant (F := Ideal) S2000x48 .f32 0x00000000#32) (ix2 p e)
      + broadcastTo S2000x48 (shapeCast S1x48 v6 shapeCasts_S1x48_S1x48) broadcasts_S1x48_S2000x48 (ix2 p e) = _
  rw [PlainDot.matmul_zero_apply dot_S2000x128_S128x48_S2000x48_1_0_0_1_n_n rfl, broadcastTo_1b_ab_apply, shapeCast_self]
  show (∑ j : Fin 128, h (ix2 p j) * v5 (ix2 j e)) + v6 (ix2 (0 : Fin 1) e) = _
  simp only [hh]
  rfl

/-- The text tower's second layer, the combination and the scaling to unit length. -/
theorem encode_apply (v11 : Vec Ideal S256x48 .f32) (v13 : FVec Ideal S1x48 .f32) (v25 : FVec Ideal S2000x48 .f32)
    (v33 : FVec Ideal S2000x256 .bf16) (p : Fin 2000) (e : Fin 48) :
    k0_pay1 (F := Ideal) v11 v13 v25 v33 (ix2 p e)
      = normalize (combine (fun e' => v25 (ix2 p e'))
          (layer2 (fun j => v33 (ix2 p j)) (fun j e' => v11 (ix2 j e')) (fun e' => v13 (ix2 (0 : Fin 1) e')))) e := by
  let x : FVec Ideal S2000x48 .f32 := addf (mulf (broadcast S2000x48 (Scalar.ofBits .f32 0x40400000#32)) v25)
      (mulf (broadcast S2000x48 (Scalar.ofBits .f32 0x3F800000#32))
        (addf (matmul dot_S2000x256_S256x48_S2000x48_1_0_0_1_n_n none v33 (truncf .bf16 v11 bitsLt_bf16_f32)
          (constant (F := Ideal) S2000x48 .f32 0x00000000#32)) (broadcastTo S2000x48 v13 broadcasts_S1x48_S2000x48)))
  have key := unitRows_apply x reduces_S2000x48_S2000 (.inl rfl) rfl shapeCasts_S2000_S2000x1 broadcasts_S2000x1_S2000x48 p e
  refine key.trans (congrArg (fun v => normalize v e) (funext fun e' => ?_))
  show wCat * v25 (ix2 p e') + wTxt * (matmul dot_S2000x256_S256x48_S2000x48_1_0_0_1_n_n none v33
      (truncf .bf16 v11 bitsLt_bf16_f32) (constant (F := Ideal) S2000x48 .f32 0x00000000#32) (ix2 p e')
      + broadcastTo S2000x48 v13 broadcasts_S1x48_S2000x48 (ix2 p e')) = _
  rw [PlainDot.matmul_zero_apply dot_S2000x256_S256x48_S2000x48_1_0_0_1_n_n rfl, broadcastTo_1b_ab_apply]
  rfl

/-! ## The similarity body -/

/-- The user rows scaled to unit length. -/
theorem unitUser_apply (v0 : Vec Ideal S4096x48 .f32) (p : Fin 4096) (e : Fin 48) :
    k1_pay1 (F := Ideal) v0 (ix2 p e) = normalize (fun e' => v0 (ix2 p e')) e := by
  have key := unitRows_apply (shapeCast S4096x48 v0 shapeCasts_S4096x48_S4096x48) reduces_S4096x48_S4096 (.inl rfl) rfl
    shapeCasts_S4096_S4096x1 broadcasts_S4096x1_S4096x48 p e
  refine key.trans ?_
  rw [shapeCast_self]

/-- The similarity to the first gathered table. -/
theorem simPos_apply (v0 v10 : Vec Ideal S4096x48 .f32) (p : Fin 4096) :
    k1_pay2 (F := Ideal) v0 v10 (ix1 p) = simRow (fun e => v0 (ix2 p e)) (fun e => v10 (ix2 p e)) := by
  unfold k1_pay2
  refine (congrArg (fun s => Ideal.div s wTemp) (multiReduction_add_axis1_apply
    (mulf (k1_pay1 (F := Ideal) v0) (shapeCast S4096x48 v10 shapeCasts_S4096x48_S4096x48)) reduces_S4096x48_S4096 (.inl rfl) rfl p)).trans ?_
  rw [shapeCast_self]
  show Ideal.div (∑ e : Fin 48, k1_pay1 (F := Ideal) v0 (ix2 p e) * v10 (ix2 p e)) wTemp = _
  simp only [unitUser_apply]
  rfl

/-- The similarity to the second gathered table. -/
theorem simNeg_apply (v0 v12 : Vec Ideal S4096x48 .f32) (p : Fin 4096) :
    k1_pay3 (F := Ideal) v0 v12 (ix1 p) = simRow (fun e => v0 (ix2 p e)) (fun e => v12 (ix2 p e)) := by
  unfold k1_pay3
  refine (congrArg (fun s => Ideal.div s wTemp) (multiReduction_add_axis1_apply
    (mulf (k1_pay1 (F := Ideal) v0) (shapeCast S4096x48 v12 shapeCasts_S4096x48_S4096x48)) reduces_S4096x48_S4096 (.inl rfl) rfl p)).trans ?_
  rw [shapeCast_self]
  show Ideal.div (∑ e : Fin 48, k1_pay1 (F := Ideal) v0 (ix2 p e) * v12 (ix2 p e)) wTemp = _
  simp only [unitUser_apply]
  rfl

/-! ## Each body's store, whole -/

theorem zeros2 : (![0, 0] : Fin 2 → Nat) = fun _ => 0 := funext fun a => by fin_cases a <;> rfl
theorem zeros1 : (![0] : Fin 1 → Nat) = fun _ => 0 := funext fun a => by fin_cases a; rfl

/-- Entry `(p, e)` of what the book-encoding body leaves in its output block: the encoding of row `p` of its category and
    text blocks, with the weights read whole and each bias read at its one row. -/
theorem bookBlock_apply (x0 : Vec Ideal S2000x64 .f32) (x1 : Vec Ideal S2000x384 .f32) (x2 : Vec Ideal S64x128 .f32)
    (x3 : Vec Ideal S1x128 .f32) (x4 : Vec Ideal S128x48 .f32) (x5 : Vec Ideal S1x48 .f32) (x6 : Vec Ideal S384x256 .f32)
    (x7 : Vec Ideal S1x256 .f32) (x8 : Vec Ideal S256x48 .f32) (x9 : Vec Ideal S1x48 .f32) (p : Fin 2000) (e : Fin 48) :
    out0_10 (F := Ideal) x0 x1 x2 x3 x4 x5 x6 x7 x8 x9 (ix2 p e)
      = encRow (fun k => x0 (ix2 p k)) (fun k => x1 (ix2 p k))
          (fun k j => x2 (ix2 k j)) (fun j => x3 (ix2 (0 : Fin 1) j)) (fun j e => x4 (ix2 j e)) (fun e => x5 (ix2 (0 : Fin 1) e))
          (fun k j => x6 (ix2 k j)) (fun j => x7 (ix2 (0 : Fin 1) j)) (fun j e => x8 (ix2 j e)) (fun e => x9 (ix2 (0 : Fin 1) e)) e := by
  unfold out0_10
  rw [View.canon_unit_zero zeros2]
  simp only [View.ld_unit_zero (S := S2000x64) zeros2, View.ld_unit_zero (S := S2000x384) zeros2,
    View.ld_unit_zero (S := S64x128) zeros2, View.ld_unit_zero (S := S1x128) zeros2, View.ld_unit_zero (S := S128x48) zeros2,
    View.ld_unit_zero (S := S1x48) zeros2, View.ld_unit_zero (S := S384x256) zeros2, View.ld_unit_zero (S := S1x256) zeros2,
    View.ld_unit_zero (S := S256x48) zeros2]
  rw [encode_apply]
  simp only [catTower_apply, textHidden_apply]
  unfold k0_pay2
  rw [shapeCast_self]
  rfl

/-- Entry `p` of what the similarity body leaves in its first output block. -/
theorem simPosBlock_apply (x0 x1 x2 : Vec Ideal S4096x48 .f32) (p : Fin 4096) :
    out1_3 (F := Ideal) x0 x1 x2 (ix1 p) = simRow (fun e => x0 (ix2 p e)) (fun e => x1 (ix2 p e)) := by
  unfold out1_3
  rw [View.canon_unit_zero zeros1]
  simp only [View.ld_unit_zero (S := S4096x48) zeros2]
  exact simPos_apply x0 x1 p

/-- Entry `p` of what the similarity body leaves in its second output block. -/
theorem simNegBlock_apply (x0 x1 x2 : Vec Ideal S4096x48 .f32) (p : Fin 4096) :
    out1_4 (F := Ideal) x0 x1 x2 (ix1 p) = simRow (fun e => x0 (ix2 p e)) (fun e => x2 (ix2 p e)) := by
  unfold out1_4
  rw [View.canon_unit_zero zeros1]
  simp only [View.ld_unit_zero (S := S4096x48) zeros2]
  exact simNeg_apply x0 x2 p

end Cert.KernelIdeal.Rows

end
-- ==== Proof.BookTable.lean ====
/-
  The table of encoded books that the first launch leaves: one function of the arrays it was launched on.

  The launch sweeps the 100000 rows of the category and text tables in 50 blocks of 2000 rows; point t holds rows
  2000·t … 2000·t + 1999 of both, the eight weight and bias arrays whole, and writes back rows 2000·t … of the output.
  Row r of the output is therefore the encoding of rows r of the two tables, whichever block r falls in, and the 50
  output blocks tile the array: after the launch, entry (r, e) of the output is `encRow` of row r, at e.
  Everything is stated at a parameter `V`, the contents of the buffers when the launch is entered.
-/
import proofs.«164708_j16157666967605_2_alg».proof.Proof.KernelRows

set_option maxRecDepth 16384

noncomputable section

open scoped BigOperators

namespace Cert.KernelIdeal.Tables

open Idealize.ShloMosaic Idealize.ShloMosaic.TcCoe Idealize.ShloMosaic.ValueIdx Idealize.SL.Sem
open Cert.KernelIdeal Cert.KernelIdeal.Gen Cert.KernelIdeal.Rows Cert.Spec
open Idealize.ShloMosaic.Pipeline (Dat)

/-- The encoded-book table as a function of the category table, the text table, the four weight matrices and the four
    bias rows (each bias as a one-row matrix, as the launch receives it). -/
def bookTable (mh : S100000x64.Idx → EReal) (sb : S100000x384.Idx → EReal)
    (Wc1 : S64x128.Idx → EReal) (bc1 : S1x128.Idx → EReal) (Wc2 : S128x48.Idx → EReal) (bc2 : S1x48.Idx → EReal)
    (Wt1 : S384x256.Idx → EReal) (bt1 : S1x256.Idx → EReal) (Wt2 : S256x48.Idx → EReal) (bt2 : S1x48.Idx → EReal) :
    S100000x48.Idx → EReal := fun i =>
  encRow (fun k => mh (ix2 (i 0) k)) (fun k => sb (ix2 (i 0) k))
    (fun k j => Wc1 (ix2 k j)) (fun j => bc1 (ix2 (0 : Fin 1) j)) (fun j e => Wc2 (ix2 j e)) (fun e => bc2 (ix2 (0 : Fin 1) e))
    (fun k j => Wt1 (ix2 k j)) (fun j => bt1 (ix2 (0 : Fin 1) j)) (fun j e => Wt2 (ix2 j e)) (fun e => bt2 (ix2 (0 : Fin 1) e)) (i 1)

variable (V : (c : Dev nD) → (b : Ref sig .tc) → Buf (Elt Ideal) ((c : Thread nD τ).loc b))

/-- The printed index maps over the 50 points: the two row-blocked inputs and the output sit at block row `t`, the
    weights and biases at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- The row of the whole tables that row `p` of point `t`'s blocks is. -/
def rowAt (t : Fin cfg0.N) (p : Fin 2000) : Fin 100000 := ⟨t.val * 2000 + p.val, by
  have := t.isLt; have := p.isLt; show t.val * 2000 + p.val < 100000
  have h50 : t.val < 50 := t.isLt
  omega⟩

/-- The category block at point `t` is rows `2000·t …` of the category table. -/
theorem catBlock (c : Dev nD) (t : Fin cfg0.N) (p : Fin 2000) (k : Fin 64) :
    iblk0 V c 0 t (ix2 p k) = (V c main_arg9 : S100000x64.Idx → EReal) (ix2 (rowAt t p) k) := by
  show (V c main_arg9 : S100000x64.Idx → EReal) (((cfg0.win 0).blk t).view.emb (ix2 p k)) = _
  refine congrArg _ (funext fun a => Fin.ext ?_)
  obtain ⟨e0, e1, -⟩ := idx_facts t
  match a with
  | ⟨0, _⟩ => show win0_0.index t (0 : Fin 2) * 2000 + 1 * p.val = t.val * 2000 + p.val; omega
  | ⟨1, _⟩ => show win0_0.index t (1 : Fin 2) * 64 + 1 * k.val = k.val; omega

/-- The text block at point `t` is rows `2000·t …` of the text table. -/
theorem txtBlock (c : Dev nD) (t : Fin cfg0.N) (p : Fin 2000) (k : Fin 384) :
    iblk0 V c 1 t (ix2 p k) = (V c main_arg8 : S100000x384.Idx → EReal) (ix2 (rowAt t p) k) := by
  show (V c main_arg8 : S100000x384.Idx → EReal) (((cfg0.win 1).blk t).view.emb (ix2 p k)) = _
  refine congrArg _ (funext fun a => Fin.ext ?_)
  obtain ⟨-, -, e0, e1, -⟩ := idx_facts t
  match a with
  | ⟨0, _⟩ => show win0_1.index t (0 : Fin 2) * 2000 + 1 * p.val = t.val * 2000 + p.val; omega
  | ⟨1, _⟩ => show win0_1.index t (1 : Fin 2) * 384 + 1 * k.val = k.val; omega

/-! ## The weights and biases: each block is its whole array -/

theorem whole2 (c : Dev nD) (t : Fin cfg0.N) : (iblk0 V c 2 t : S64x128.Idx → EReal) = V c main_arg10 := by
  funext y
  show (V c main_arg10 : S64x128.Idx → EReal) (((cfg0.win 2).blk t).view.emb y) = _
  refine congrArg _ (funext fun a => Fin.ext ?_)
  obtain ⟨-, -, -, -, e0, e1, -⟩ := idx_facts t
  match a with
  | ⟨0, _⟩ => show win0_2.index t (0 : Fin 2) * 64 + 1 * (y 0).val = (y 0).val; omega
  | ⟨1, _⟩ => show win0_2.index t (1 : Fin 2) * 128 + 1 * (y 1).val = (y 1).val; omega

theorem whole3 (c : Dev nD) (t : Fin cfg0.N) : (iblk0 V c 3 t : S1x128.Idx → EReal) = V c main_v0 := by
  funext y
  show (V c main_v0 : S1x128.Idx → EReal) (((cfg0.win 3).blk t).view.emb y) = _
  refine congrArg _ (funext fun a => Fin.ext ?_)
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem whole4 (c : Dev nD) (t : Fin cfg0.N) : (iblk0 V c 4 t : S128x48.Idx → EReal) = V c main_arg12 := by
  funext y
  show (V c main_arg12 : S128x48.Idx → EReal) (((cfg0.win 4).blk t).view.emb y) = _
  refine congrArg _ (funext fun a => Fin.ext ?_)
  obtain ⟨-, -, -, -, -, -, -, -, e0, e1, -⟩ := idx_facts t
  match a with
  | ⟨0, _⟩ => show win0_4.index t (0 : Fin 2) * 128 + 1 * (y 0).val = (y 0).val; omega
  | ⟨1, _⟩ => show win0_4.index t (1 : Fin 2) * 48 + 1 * (y 1).val = (y 1).val; omega

theorem whole5 (c : Dev nD) (t : Fin cfg0.N) : (iblk0 V c 5 t : S1x48.Idx → EReal) = V c main_v1 := by
  funext y
  show (V c main_v1 : S1x48.Idx → EReal) (((cfg0.win 5).blk t).view.emb y) = _
  refine congrArg _ (funext fun a => Fin.ext ?_)
  obtain ⟨-, -, -, -, -, -, -, -, -, -, e0, e1, -⟩ := idx_facts t
  match a with
  | ⟨0, _⟩ => show win0_5.index t (0 : Fin 2) * 1 + 1 * (y 0).val = (y 0).val; omega
  | ⟨1, _⟩ => show win0_5.index t (1 : Fin 2) * 48 + 1 * (y 1).val = (y 1).val; omega

theorem whole6 (c : Dev nD) (t : Fin cfg0.N) : (iblk0 V c 6 t : S384x256.Idx → EReal) = V c main_arg14 := by
  funext y
  show (V c main_arg14 : S384x256.Idx → EReal) (((cfg0.win 6).blk t).view.emb y) = _
  refine congrArg _ (funext fun a => Fin.ext ?_)
  obtain ⟨-, -, -, -, -, -, -, -, -, -, -, -, e0, e1, -⟩ := idx_facts t
  match a with
  | ⟨0, _⟩ => show win0_6.index t (0 : Fin 2) * 384 + 1 * (y 0).val = (y 0).val; omega
  | ⟨1, _⟩ => show win0_6.index t (1 : Fin 2) * 256 + 1 * (y 1).val = (y 1).val; omega

theorem whole7 (c : Dev nD) (t : Fin cfg0.N) : (iblk0 V c 7 t : S1x256.Idx → EReal) = V c main_v2 := by
  funext y
  show (V c main_v2 : S1x256.Idx → EReal) (((cfg0.win 7).blk t).view.emb y) = _
  refine congrArg _ (funext fun a => Fin.ext ?_)
  obtain ⟨-, -, -, -, -, -, -, -, -, -, -, -, -, -, e0, e1, -⟩ := idx_facts t
  match a with
  | ⟨0, _⟩ => show win0_7.index t (0 : Fin 2) * 1 + 1 * (y 0).val = (y 0).val; omega
  | ⟨1, _⟩ => show win0_7.index t (1 : Fin 2) * 256 + 1 * (y 1).val = (y 1).val; omega

theorem whole8 (c : Dev nD) (t : Fin cfg0.N) : (iblk0 V c 8 t : S256x48.Idx → EReal) = V c main_arg16 := by
  funext y
  show (V c main_arg16 : S256x48.Idx → EReal) (((cfg0.win 8).blk t).view.emb y) = _
  refine congrArg _ (funext fun a => Fin.ext ?_)
  obtain ⟨-, -, -, -, -, -, -, -, -, -, -, -, -, -, -, -, e0, e1, -⟩ := idx_facts t
  match a with
  | ⟨0, _⟩ => show win0_8.index t (0 : Fin 2) * 256 + 1 * (y 0).val = (y 0).val; omega
  | ⟨1, _⟩ => show win0_8.index t (1 : Fin 2) * 48 + 1 * (y 1).val = (y 1).val; omega

theorem whole9 (c : Dev nD) (t : Fin cfg0.N) : (iblk0 V c 9 t : S1x48.Idx → EReal) = V c main_v3 := by
  funext y
  show (V c main_v3 : S1x48.Idx → EReal) (((cfg0.win 9).blk t).view.emb y) = _
  refine congrArg _ (funext fun a => Fin.ext ?_)
  obtain ⟨-, -, -, -, -, -, -, -, -, -, -, -, -, -, -, -, -, -, e0, e1, -⟩ := idx_facts t
  match a with
  | ⟨0, _⟩ => show win0_9.index t (0 : Fin 2) * 1 + 1 * (y 0).val = (y 0).val; omega
  | ⟨1, _⟩ => show win0_9.index t (1 : Fin 2) * 48 + 1 * (y 1).val = (y 1).val; omega

/-! ## What a point writes back, the cover, the table -/

/-- The table of the arrays as the launch finds them. -/
abbrev tableOf (c : Dev nD) : S100000x48.Idx → EReal :=
  bookTable (V c main_arg9) (V c main_arg8) (V c main_arg10) (V c main_v0) (V c main_arg12) (V c main_v1)
    (V c main_arg14) (V c main_v2) (V c main_arg16) (V c main_v3)

/-- Entry `(p, e)` of point `t`'s output block lands at entry `(2000·t + p, e)` of the array. -/
theorem outEmb (t : Fin cfg0.N) (p : Fin 2000) (e : Fin 48) :
    (((cfg0.win 10).blk t).view.emb (ix2 p e) : S100000x48.Idx) = ix2 (rowAt t p) e := by
  funext a; refine Fin.ext ?_
  obtain ⟨-, -, -, -, -, -, -, -, -, -, -, -, -, -, -, -, -, -, -, -, e0, e1⟩ := idx_facts t
  match a with
  | ⟨0, _⟩ => show win0_10.index t (0 : Fin 2) * 2000 + 1 * p.val = t.val * 2000 + p.val; omega
  | ⟨1, _⟩ => show win0_10.index t (1 : Fin 2) * 48 + 1 * e.val = e.val; omega

/-- WHAT POINT `t` WRITES BACK is block `t` of the table. -/
theorem bookFlushed (c : Dev nD) (t : Fin cfg0.N) :
    (dat0 V c).flushed 10 t = ((cfg0.win 10).blk t).view.read (Elt Ideal) (tableOf V c) := by
  show (cfg0.win 10).cut (grid0.coords t) ((dat0 V c).after 10 t) = _
  rw [after0_10]
  funext j
  obtain ⟨p, e, rfl⟩ : ∃ (p : Fin 2000) (e : Fin 48), j = ix2 p e := ⟨j 0, j 1, eq_ix2 j⟩
  show out0_10 (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (ix2 p e)
    = tableOf V c (((cfg0.win 10).blk t).view.emb (ix2 p e))
  rw [outEmb t p e]
  refine (bookBlock_apply (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) p e).trans ?_
  show _ = encRow (fun k => (V c main_arg9 : S100000x64.Idx → EReal) (ix2 (rowAt t p) k))
      (fun k => (V c main_arg8 : S100000x384.Idx → EReal) (ix2 (rowAt t p) k))
      (fun k j => (V c main_arg10 : S64x128.Idx → EReal) (ix2 k j)) (fun j => (V c main_v0 : S1x128.Idx → EReal) (ix2 (0 : Fin 1) j))
      (fun j e => (V c main_arg12 : S128x48.Idx → EReal) (ix2 j e)) (fun e => (V c main_v1 : S1x48.Idx → EReal) (ix2 (0 : Fin 1) e))
      (fun k j => (V c main_arg14 : S384x256.Idx → EReal) (ix2 k j)) (fun j => (V c main_v2 : S1x256.Idx → EReal) (ix2 (0 : Fin 1) j))
      (fun j e => (V c main_arg16 : S256x48.Idx → EReal) (ix2 j e)) (fun e => (V c main_v3 : S1x48.Idx → EReal) (ix2 (0 : Fin 1) e)) e
  simp only [catBlock V c t p, txtBlock V c t p, whole2 V c t, whole3 V c t, whole4 V c t, whole5 V c t, whole6 V c t,
    whole7 V c t, whole8 V c t, whole9 V c t]

/-- An index of the output array is in point `t`'s block iff its row is among rows `2000·t … 2000·t + 1999`. -/
theorem mem_outBlk (t : Fin cfg0.N) (i : S100000x48.Idx) :
    i ∈ ((cfg0.win 10).blk t).view.set ↔ ∀ a : Fin 2, win0_10.index t a * S2000x48.size a ≤ (i a).val
      ∧ (i a).val < win0_10.index t a * S2000x48.size a + S2000x48.size a := by
  show i ∈ ((View.whole main_v4).slice (win0_10.rect t)).set ↔ _
  rw [View.set_slice_whole, Rect.mem_set_unit]
  exact Iff.rfl

/-- The 50 output blocks tile the array: row `r` is in block `r / 2000`. -/
theorem outCover (i : S100000x48.Idx) :
    ∃ t : Fin cfg0.N, (cfg0.win 10).flush t = true ∧ i ∈ ((cfg0.win 10).blk t).view.set := by
  have hi0 : (i 0).val < 100000 := (i 0).isLt
  have hi1 : (i 1).val < 48 := (i 1).isLt
  let t : Fin cfg0.N := ⟨(i 0).val / 2000, by show (i 0).val / 2000 < 50; omega⟩
  refine ⟨t, flush0_10 t, ?_⟩
  rw [mem_outBlk]
  obtain ⟨-, -, -, -, -, -, -, -, -, -, -, -, -, -, -, -, -, -, -, -, e0, e1⟩ := idx_facts t
  have ht : t.val = (i 0).val / 2000 := rfl
  intro a
  match a with
  | ⟨0, _⟩ =>
    show win0_10.index t (0 : Fin 2) * 2000 ≤ (i 0).val ∧ (i 0).val < win0_10.index t (0 : Fin 2) * 2000 + 2000
    omega
  | ⟨1, _⟩ =>
    show win0_10.index t (1 : Fin 2) * 48 ≤ (i 1).val ∧ (i 1).val < win0_10.index t (1 : Fin 2) * 48 + 48
    omega

/-- THE TABLE after the launch: the encoding of every row. -/
theorem bookFinal (c : Dev nD) : (dat0 V c).arrAt 10 cfg0.N = tableOf V c :=
  (dat0 V c).arrAt_eq_of_cover 10 (tableOf V c) (fun t _ => bookFlushed V c t) outCover

end Cert.KernelIdeal.Tables

end
-- ==== Proof.SimTable.lean ====
/-
  The two similarity arrays that the second launch leaves: each one function of the arrays it was launched on.

  The launch sweeps the 262144 user rows, and the same rows of the two gathered book tables, in 64 blocks of 4096 rows;
  point t holds rows 4096·t … 4096·t + 4095 of all three and writes back entries 4096·t … of each output. Entry b of an
  output is therefore the similarity of user row b to row b of that gathered table, and the 64 blocks tile each output.
  Everything is stated at a parameter `V`, the contents of the buffers when the launch is entered.
-/
import proofs.«164708_j16157666967605_2_alg».proof.Proof.KernelRows

set_option maxRecDepth 16384

noncomputable section

open scoped BigOperators

namespace Cert.KernelIdeal.Sims

open Idealize.ShloMosaic Idealize.ShloMosaic.TcCoe Idealize.ShloMosaic.ValueIdx Idealize.SL.Sem
open Cert.KernelIdeal Cert.KernelIdeal.Gen Cert.KernelIdeal.Rows Cert.Spec
open Idealize.ShloMosaic.Pipeline (Dat)

/-- The similarities of the rows of a user array to the same rows of a book array. -/
def simTable (U P : S262144x48.Idx → EReal) : S262144.Idx → EReal := fun i =>
  simRow (fun e => U (ix2 (i 0) e)) (fun e => P (ix2 (i 0) e))

variable (V : (c : Dev nD) → (b : Ref sig .tc) → Buf (Elt Ideal) ((c : Thread nD τ).loc b))

/-- The printed index maps over the 64 points: every window sits at block row `t`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = t.val ∧ win1_4.index t (0 : Fin 1) = t.val :=
  (by decide +kernel : ∀ t : Fin grid1.N, _)

/-- The row of the whole arrays that row `p` of point `t`'s blocks is. -/
def rowAt (t : Fin cfg1.N) (p : Fin 4096) : Fin 262144 := ⟨t.val * 4096 + p.val, by
  have := p.isLt; show t.val * 4096 + p.val < 262144
  have h64 : t.val < 64 := t.isLt
  omega⟩

/-! ## The three input blocks at a point -/

theorem userBlock (c : Dev nD) (t : Fin cfg1.N) (p : Fin 4096) (e : Fin 48) :
    iblk1 V c 0 t (ix2 p e) = (V c main_v53 : S262144x48.Idx → EReal) (ix2 (rowAt t p) e) := by
  show (V c main_v53 : S262144x48.Idx → EReal) (((cfg1.win 0).blk t).view.emb (ix2 p e)) = _
  refine congrArg _ (funext fun a => Fin.ext ?_)
  obtain ⟨e0, e1, -⟩ := idx_facts t
  match a with
  | ⟨0, _⟩ => show win1_0.index t (0 : Fin 2) * 4096 + 1 * p.val = t.val * 4096 + p.val; omega
  | ⟨1, _⟩ => show win1_0.index t (1 : Fin 2) * 48 + 1 * e.val = e.val; omega

theorem posBlock (c : Dev nD) (t : Fin cfg1.N) (p : Fin 4096) (e : Fin 48) :
    iblk1 V c 1 t (ix2 p e) = (V c main_v11 : S262144x48.Idx → EReal) (ix2 (rowAt t p) e) := by
  show (V c main_v11 : S262144x48.Idx → EReal) (((cfg1.win 1).blk t).view.emb (ix2 p e)) = _
  refine congrArg _ (funext fun a => Fin.ext ?_)
  obtain ⟨-, -, e0, e1, -⟩ := idx_facts t
  match a with
  | ⟨0, _⟩ => show win1_1.index t (0 : Fin 2) * 4096 + 1 * p.val = t.val * 4096 + p.val; omega
  | ⟨1, _⟩ => show win1_1.index t (1 : Fin 2) * 48 + 1 * e.val = e.val; omega

theorem negBlock (c : Dev nD) (t : Fin cfg1.N) (p : Fin 4096) (e : Fin 48) :
    iblk1 V c 2 t (ix2 p e) = (V c main_v18 : S262144x48.Idx → EReal) (ix2 (rowAt t p) e) := by
  show (V c main_v18 : S262144x48.Idx → EReal) (((cfg1.win 2).blk t).view.emb (ix2 p e)) = _
  refine congrArg _ (funext fun a => Fin.ext ?_)
  obtain ⟨-, -, -, -, e0, e1, -⟩ := idx_facts t
  match a with
  | ⟨0, _⟩ => show win1_2.index t (0 : Fin 2) * 4096 + 1 * p.val = t.val * 4096 + p.val; omega
  | ⟨1, _⟩ => show win1_2.index t (1 : Fin 2) * 48 + 1 * e.val = e.val; omega

/-! ## The two outputs -/

abbrev posSims (c : Dev nD) : S262144.Idx → EReal := simTable (V c main_v53) (V c main_v11)
abbrev negSims (c : Dev nD) : S262144.Idx → EReal := simTable (V c main_v53) (V c main_v18)

/-- Entry `p` of point `t`'s block of this output lands at entry `4096·t + p` of the array. -/
theorem posEmb (t : Fin cfg1.N) (p : Fin 4096) :
    (((cfg1.win 3).blk t).view.emb (ix1 p) : S262144.Idx) = ix1 (rowAt t p) := by
  funext a; refine Fin.ext ?_
  obtain ⟨-, -, -, -, -, -, e0, -⟩ := idx_facts t
  match a with
  | ⟨0, _⟩ => show win1_3.index t (0 : Fin 1) * 4096 + 1 * p.val = t.val * 4096 + p.val; omega

/-- WHAT POINT `t` WRITES BACK is block `t` of the similarities. -/
theorem posFlushed (c : Dev nD) (t : Fin cfg1.N) :
    (dat1 V c).flushed 3 t = ((cfg1.win 3).blk t).view.read (Elt Ideal) (posSims V c) := by
  show (cfg1.win 3).cut (grid1.coords t) ((dat1 V c).after 3 t) = _
  rw [after1_3]
  funext j
  obtain ⟨p, rfl⟩ : ∃ p : Fin 4096, j = ix1 p := ⟨j 0, eq_ix1 j⟩
  show out1_3 (iblk1 V c 0 t) (iblk1 V c 1 t) (iblk1 V c 2 t) (ix1 p) = posSims V c (((cfg1.win 3).blk t).view.emb (ix1 p))
  rw [posEmb t p]
  refine (simPosBlock_apply (iblk1 V c 0 t) (iblk1 V c 1 t) (iblk1 V c 2 t) p).trans ?_
  show _ = simRow (fun e => (V c main_v53 : S262144x48.Idx → EReal) (ix2 (rowAt t p) e))
      (fun e => (V c main_v11 : S262144x48.Idx → EReal) (ix2 (rowAt t p) e))
  simp only [userBlock V c t p, posBlock V c t p, negBlock V c t p]

theorem posMem (t : Fin cfg1.N) (i : S262144.Idx) :
    i ∈ ((cfg1.win 3).blk t).view.set ↔ ∀ a : Fin 1, win1_3.index t a * S4096.size a ≤ (i a).val
      ∧ (i a).val < win1_3.index t a * S4096.size a + S4096.size a := by
  show i ∈ ((View.whole main_v54_0).slice (win1_3.rect t)).set ↔ _
  rw [View.set_slice_whole, Rect.mem_set_unit]
  exact Iff.rfl

/-- The 64 blocks of this output tile it: entry `b` is in block `b / 4096`. -/
theorem posCover (i : S262144.Idx) :
    ∃ t : Fin cfg1.N, (cfg1.win 3).flush t = true ∧ i ∈ ((cfg1.win 3).blk t).view.set := by
  have hi0 : (i 0).val < 262144 := (i 0).isLt
  let t : Fin cfg1.N := ⟨(i 0).val / 4096, by show (i 0).val / 4096 < 64; omega⟩
  refine ⟨t, flush1_3 t, ?_⟩
  rw [posMem]
  obtain ⟨-, -, -, -, -, -, e0, -⟩ := idx_facts t
  have ht : t.val = (i 0).val / 4096 := rfl
  intro a
  match a with
  | ⟨0, _⟩ =>
    show win1_3.index t (0 : Fin 1) * 4096 ≤ (i 0).val ∧ (i 0).val < win1_3.index t (0 : Fin 1) * 4096 + 4096
    omega

/-- THE ARRAY after the launch. -/
theorem posFinal (c : Dev nD) : (dat1 V c).arrAt 3 cfg1.N = posSims V c :=
  (dat1 V c).arrAt_eq_of_cover 3 (posSims V c) (fun t _ => posFlushed V c t) posCover

/-- Entry `p` of point `t`'s block of this output lands at entry `4096·t + p` of the array. -/
theorem negEmb (t : Fin cfg1.N) (p : Fin 4096) :
    (((cfg1.win 4).blk t).view.emb (ix1 p) : S262144.Idx) = ix1 (rowAt t p) := by
  funext a; refine Fin.ext ?_
  obtain ⟨-, -, -, -, -, -, -, e0⟩ := idx_facts t
  match a with
  | ⟨0, _⟩ => show win1_4.index t (0 : Fin 1) * 4096 + 1 * p.val = t.val * 4096 + p.val; omega

/-- WHAT POINT `t` WRITES BACK is block `t` of the similarities. -/
theorem negFlushed (c : Dev nD) (t : Fin cfg1.N) :
    (dat1 V c).flushed 4 t = ((cfg1.win 4).blk t).view.read (Elt Ideal) (negSims V c) := by
  show (cfg1.win 4).cut (grid1.coords t) ((dat1 V c).after 4 t) = _
  rw [after1_4]
  funext j
  obtain ⟨p, rfl⟩ : ∃ p : Fin 4096, j = ix1 p := ⟨j 0, eq_ix1 j⟩
  show out1_4 (iblk1 V c 0 t) (iblk1 V c 1 t) (iblk1 V c 2 t) (ix1 p) = negSims V c (((cfg1.win 4).blk t).view.emb (ix1 p))
  rw [negEmb t p]
  refine (simNegBlock_apply (iblk1 V c 0 t) (iblk1 V c 1 t) (iblk1 V c 2 t) p).trans ?_
  show _ = simRow (fun e => (V c main_v53 : S262144x48.Idx → EReal) (ix2 (rowAt t p) e))
      (fun e => (V c main_v18 : S262144x48.Idx → EReal) (ix2 (rowAt t p) e))
  simp only [userBlock V c t p, posBlock V c t p, negBlock V c t p]

theorem negMem (t : Fin cfg1.N) (i : S262144.Idx) :
    i ∈ ((cfg1.win 4).blk t).view.set ↔ ∀ a : Fin 1, win1_4.index t a * S4096.size a ≤ (i a).val
      ∧ (i a).val < win1_4.index t a * S4096.size a + S4096.size a := by
  show i ∈ ((View.whole main_v54_1).slice (win1_4.rect t)).set ↔ _
  rw [View.set_slice_whole, Rect.mem_set_unit]
  exact Iff.rfl

/-- The 64 blocks of this output tile it: entry `b` is in block `b / 4096`. -/
theorem negCover (i : S262144.Idx) :
    ∃ t : Fin cfg1.N, (cfg1.win 4).flush t = true ∧ i ∈ ((cfg1.win 4).blk t).view.set := by
  have hi0 : (i 0).val < 262144 := (i 0).isLt
  let t : Fin cfg1.N := ⟨(i 0).val / 4096, by show (i 0).val / 4096 < 64; omega⟩
  refine ⟨t, flush1_4 t, ?_⟩
  rw [negMem]
  obtain ⟨-, -, -, -, -, -, -, e0⟩ := idx_facts t
  have ht : t.val = (i 0).val / 4096 := rfl
  intro a
  match a with
  | ⟨0, _⟩ =>
    show win1_4.index t (0 : Fin 1) * 4096 ≤ (i 0).val ∧ (i 0).val < win1_4.index t (0 : Fin 1) * 4096 + 4096
    omega

/-- THE ARRAY after the launch. -/
theorem negFinal (c : Dev nD) : (dat1 V c).arrAt 4 cfg1.N = negSims V c :=
  (dat1 V c).arrAt_eq_of_cover 4 (negSims V c) (fun t _ => negFlushed V c t) negCover

end Cert.KernelIdeal.Sims

end
-- ==== Proof.LibRowGather.lean ====
/-
  GENERAL LEMMA: a gather of whole rows — what `x[idx]` of a table `x : [N, D]` at an integer array `idx : [B]` is in a
  host program — read at an index given by coordinates.

  The start indices arrive as a column `[B, 1]`; the dimension numbers collapse the table's row axis, map the one
  start-index component to it, keep the column axis whole as the result's offset axis, and take slices `[1, D]`.
  Entry `(b, e)` of the result is the table's entry `(r, e)`, where the row `r` is the start index `idx[b, 0]` read as
  a signed integer and clamped into `[0, N − 1]`. The row depends on the start indices and on `N` only, not on the row
  length `D`: two tables with the same number of rows are gathered at the same rows.
-/
import Idealize.ShloMosaic.Lib.ValueIdx

noncomputable section

namespace Idealize.ShloMosaic.ValueIdx

open Idealize.ShloMosaic

section RowGather
variable {α : Type}

/-- The dimension numbers of a row gather, for a table `[N, D]`, start indices `[B, 1]` and a result `[B, D]`; their
    conditions `wf` are decided on a program's literal shapes. -/
abbrev rowGatherDims (N B D : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

/-- The row of the table that entry `b` of the result is taken from: the start index read signed, clamped into
    `[0, N − 1]`. -/
def gatherRow {B w : Nat} (N : Nat) (hN : 0 < N) (idx : IVec ⟨2, ![B, 1]⟩ w) (b : Fin B) : Fin N :=
  ⟨min (idx (ix2 b (0 : Fin 1))).toInt.toNat (N - 1), by omega⟩

/-- THE ROW GATHER READ AT `(b, e)`: the table at row `gatherRow N idx b`, column `e`. -/
theorem gather_row_apply {N B D w : Nat} (hN : 0 < N)
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ w) (b : Fin B) (e : Fin D) :
    Host.gather (rowGatherDims N B D wf) x idx (ix2 b e) = x (ix2 (gatherRow N hN idx b) e) := by
  unfold Host.gather
  congr 1
  -- the row axis: the one start-index component, clamped; nothing added to it
  have h0 : (rowGatherDims N B D wf).start (ix2 b e) idx (0 : Fin 2) + (rowGatherDims N B D wf).batchCoord (ix2 b e) (0 : Fin 2)
      + (rowGatherDims N B D wf).offCoord (ix2 b e) (0 : Fin 2) = min (idx (ix2 b (0 : Fin 1))).toInt.toNat (N - 1) := by
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 2) ∈ (rowGatherDims N B D wf).startIndexMap from List.mem_singleton.mpr rfl)]
    have hsi : (rowGatherDims N B D wf).siIdx (ix2 b e) ⟨List.idxOf (0 : Fin 2) (rowGatherDims N B D wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  -- the column axis: no start component, the result's own column as the offset
  have h1 : (rowGatherDims N B D wf).start (ix2 b e) idx (1 : Fin 2) + (rowGatherDims N B D wf).batchCoord (ix2 b e) (1 : Fin 2)
      + (rowGatherDims N B D wf).offCoord (ix2 b e) (1 : Fin 2) = e.val := by
    rw [GatherDims.batchCoord_eq_zero _ _ _ List.not_mem_nil, Nat.add_zero]
    have hs : (rowGatherDims N B D wf).start (ix2 b e) idx (1 : Fin 2) = 0 := by
      unfold GatherDims.start
      rw [dif_neg (show ¬ (1 : Fin 2) ∈ (rowGatherDims N B D wf).startIndexMap from
        fun h => Nat.one_ne_zero (congrArg Fin.val (List.mem_singleton.mp h)))]
    rw [hs, Nat.zero_add]
    rfl
  funext a
  refine Fin.ext ?_
  match a with
  | ⟨0, _⟩ => exact h0
  | ⟨1, _⟩ => exact h1

end RowGather

end Idealize.ShloMosaic.ValueIdx

end
-- ==== Proof.ResultSpec.lean ====
/-
  The result both programs return, entry by entry.

  Entry (b, 0) is the similarity of user row b to the encoding of the book that the first index array names at b;
  entry (b, 1) the same with the second index array. A book index is read signed and clamped into the table's 100000
  rows, as a gather does. The user rows `U` and the two index columns are taken as given: both programs build them by
  the same host operations, which are never opened.
-/
import proofs.«164708_j16157666967605_2_alg».proof.Proof.Spec
import proofs.«164708_j16157666967605_2_alg».proof.Proof.LibRowGather

noncomputable section

open scoped BigOperators

namespace Cert.Spec

open Idealize.ShloMosaic Idealize.ShloMosaic.ValueIdx

theorem books_pos : 0 < 100000 := by decide

/-- The row of the book tables that entry `i` of the result reads: column 0 through the first index array, column 1
    through the second. -/
def bookRow (ip ineg : IVec ⟨2, ![262144, 1]⟩ 32) (i : (⟨2, ![262144, 2]⟩ : Shape).Idx) : Fin 100000 :=
  if (i 1).val = 0 then gatherRow 100000 books_pos ip (i 0) else gatherRow 100000 books_pos ineg (i 0)

/-- The result as one function of the user rows, the two index columns, the two book tables and the weights. -/
def outSpec (U : (⟨2, ![262144, 48]⟩ : Shape).Idx → EReal) (ip ineg : IVec ⟨2, ![262144, 1]⟩ 32)
    (mh : (⟨2, ![100000, 64]⟩ : Shape).Idx → EReal) (sb : (⟨2, ![100000, 384]⟩ : Shape).Idx → EReal)
    (Wc1 : (⟨2, ![64, 128]⟩ : Shape).Idx → EReal) (bc1 : (⟨1, ![128]⟩ : Shape).Idx → EReal)
    (Wc2 : (⟨2, ![128, 48]⟩ : Shape).Idx → EReal) (bc2 : (⟨1, ![48]⟩ : Shape).Idx → EReal)
    (Wt1 : (⟨2, ![384, 256]⟩ : Shape).Idx → EReal) (bt1 : (⟨1, ![256]⟩ : Shape).Idx → EReal)
    (Wt2 : (⟨2, ![256, 48]⟩ : Shape).Idx → EReal) (bt2 : (⟨1, ![48]⟩ : Shape).Idx → EReal) :
    (⟨2, ![262144, 2]⟩ : Shape).Idx → EReal := fun i =>
  simRow (fun e => U (ix2 (i 0) e))
    (encRow (fun k => mh (ix2 (bookRow ip ineg i) k)) (fun k => sb (ix2 (bookRow ip ineg i) k))
      (fun k j => Wc1 (ix2 k j)) (fun j => bc1 (ix1 j)) (fun j e => Wc2 (ix2 j e)) (fun e => bc2 (ix1 e))
      (fun k j => Wt1 (ix2 k j)) (fun j => bt1 (ix1 j)) (fun j e => Wt2 (ix2 j e)) (fun e => bt2 (ix1 e)))

end Cert.Spec

end
-- ==== Proof.HostTerms.lean ====
/-
  The host operations between the launches, as two functions.

  `wrapIdx n x` is an index array with its negative entries wrapped once (`x < 0 ? x + n : x`) and laid out as a column:
  the start indices of a gather from a table of `n` rows. `userPre` is the user tower before normalization:
  `3 · (user_cat[ui] + loc_cat[li]) + 1 · (user_txt[ui] + loc_txt[li])`, each bracket a pair of row gathers.
  Both programs apply exactly these operations; the certificate carries them as these two terms and never opens them.
-/
import proofs.«164708_j16157666967605_2_alg».proof.Proof.Gen.KernelIdeal
import Idealize.ShloMosaic.PureOps.Ideal

noncomputable section

namespace Cert.KernelIdeal.HostTerms

open Idealize.ShloMosaic Cert.KernelIdeal Cert.KernelIdeal.Facts₀

/-- An index array with negatives wrapped by `n`, as a column of start indices. -/
def wrapIdx (n : BitVec 32) (x : IVec S262144 32) : IVec S262144x1 32 :=
  broadcastInDim S262144x1 ![0] bcast_S262144_S262144x1_0
    (select (cmpi .slt x (broadcastInDim S262144 ![] bcast_S_S262144 (constantI S_ 32 0#32)))
      (addi x (broadcastInDim S262144 ![] bcast_S_S262144 (constantI S_ 32 n))) x)

/-- The user tower before normalization. -/
def userPre (ui li : IVec S262144 32) (uc ut : FVec Ideal S100000x48 .f32) (lc lt : FVec Ideal S2000x48 .f32) :
    FVec Ideal S262144x48 .f32 :=
  addf
    (mulf (broadcastInDim S262144x48 ![] bcast_S_S262144x48 (constant (F := Ideal) S_ .f32 0x40400000#32))
      (addf (Host.gather gather_S100000x48_S262144x1_S262144x48_1_0_n_n_0_1_148 uc (wrapIdx 100000#32 ui))
        (Host.gather gather_S2000x48_S262144x1_S262144x48_1_0_n_n_0_1_148 lc (wrapIdx 2000#32 li))))
    (mulf (broadcastInDim S262144x48 ![] bcast_S_S262144x48 (constant (F := Ideal) S_ .f32 0x3F800000#32))
      (addf (Host.gather gather_S100000x48_S262144x1_S262144x48_1_0_n_n_0_1_148 ut (wrapIdx 100000#32 ui))
        (Host.gather gather_S2000x48_S262144x1_S262144x48_1_0_n_n_0_1_148 lt (wrapIdx 2000#32 li))))

end Cert.KernelIdeal.HostTerms

end
-- ==== Proof.KernelValue.lean ====
/-
  What the kernel program returns, as the specification's function of its arguments.

  The buffer contents are followed from boundary to boundary. Before the first launch the four bias vectors are
  recast as one-row matrices and nothing else changes. The first launch leaves the table of encoded books — row r the
  encoding of rows r of the category and text tables — and changes nothing else. The host then gathers rows of that
  table at the two wrapped index columns and forms the user rows. The second launch leaves, for each of the two
  gathered tables, the similarity of user row b to its row b. The host pairs the two arrays as the two columns of the
  result. Read at entry (b, s): the similarity of user row b to the encoding of the book that index array s names at b
  — a row of the table is the encoding of that row of the inputs, so gathering after encoding is encoding the
  gathered rows.
-/
import proofs.«164708_j16157666967605_2_alg».proof.Proof.BookTable
import proofs.«164708_j16157666967605_2_alg».proof.Proof.SimTable
import proofs.«164708_j16157666967605_2_alg».proof.Proof.ResultSpec
import proofs.«164708_j16157666967605_2_alg».proof.Proof.HostTerms
import Idealize.ShloMosaic.Lib.StableHlo.Run
import Idealize.ShloMosaic.Lib.ValueLayout

set_option maxRecDepth 16384

noncomputable section

open scoped BigOperators

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.KernelIdeal.HostTerms Cert.KernelIdeal.Tables Cert.KernelIdeal.Sims Cert.Spec

variable (m : (ℓ : Loc nD τ sig) → Buf (Elt Ideal) ℓ) (ρ : Dev nD → PrngReg) (c : Dev nD)

/-! ## Before the first launch: the arguments as launched, the biases as one-row matrices -/

theorem w1_arg0 : W1 m ρ c (Proc.devRef .tc main_arg0) = m ((c : Thread nD τ).loc main_arg0) := by
  show StableHlo.after hostOps0 (W0 m ρ c) (Proc.devRef .tc main_arg0) = _
  after_results

theorem w1_arg1 : W1 m ρ c (Proc.devRef .tc main_arg1) = m ((c : Thread nD τ).loc main_arg1) := by
  show StableHlo.after hostOps0 (W0 m ρ c) (Proc.devRef .tc main_arg1) = _
  after_results

theorem w1_arg2 : W1 m ρ c (Proc.devRef .tc main_arg2) = m ((c : Thread nD τ).loc main_arg2) := by
  show StableHlo.after hostOps0 (W0 m ρ c) (Proc.devRef .tc main_arg2) = _
  after_results

theorem w1_arg3 : W1 m ρ c (Proc.devRef .tc main_arg3) = m ((c : Thread nD τ).loc main_arg3) := by
  show StableHlo.after hostOps0 (W0 m ρ c) (Proc.devRef .tc main_arg3) = _
  after_results

theorem w1_arg4 : W1 m ρ c (Proc.devRef .tc main_arg4) = m ((c : Thread nD τ).loc main_arg4) := by
  show StableHlo.after hostOps0 (W0 m ρ c) (Proc.devRef .tc main_arg4) = _
  after_results

theorem w1_arg5 : W1 m ρ c (Proc.devRef .tc main_arg5) = m ((c : Thread nD τ).loc main_arg5) := by
  show StableHlo.after hostOps0 (W0 m ρ c) (Proc.devRef .tc main_arg5) = _
  after_results

theorem w1_arg6 : W1 m ρ c (Proc.devRef .tc main_arg6) = m ((c : Thread nD τ).loc main_arg6) := by
  show StableHlo.after hostOps0 (W0 m ρ c) (Proc.devRef .tc main_arg6) = _
  after_results

theorem w1_arg7 : W1 m ρ c (Proc.devRef .tc main_arg7) = m ((c : Thread nD τ).loc main_arg7) := by
  show StableHlo.after hostOps0 (W0 m ρ c) (Proc.devRef .tc main_arg7) = _
  after_results

theorem w1_arg8 : W1 m ρ c (Proc.devRef .tc main_arg8) = m ((c : Thread nD τ).loc main_arg8) := by
  show StableHlo.after hostOps0 (W0 m ρ c) (Proc.devRef .tc main_arg8) = _
  after_results

theorem w1_arg9 : W1 m ρ c (Proc.devRef .tc main_arg9) = m ((c : Thread nD τ).loc main_arg9) := by
  show StableHlo.after hostOps0 (W0 m ρ c) (Proc.devRef .tc main_arg9) = _
  after_results

theorem w1_arg10 : W1 m ρ c (Proc.devRef .tc main_arg10) = m ((c : Thread nD τ).loc main_arg10) := by
  show StableHlo.after hostOps0 (W0 m ρ c) (Proc.devRef .tc main_arg10) = _
  after_results

theorem w1_arg12 : W1 m ρ c (Proc.devRef .tc main_arg12) = m ((c : Thread nD τ).loc main_arg12) := by
  show StableHlo.after hostOps0 (W0 m ρ c) (Proc.devRef .tc main_arg12) = _
  after_results

theorem w1_arg14 : W1 m ρ c (Proc.devRef .tc main_arg14) = m ((c : Thread nD τ).loc main_arg14) := by
  show StableHlo.after hostOps0 (W0 m ρ c) (Proc.devRef .tc main_arg14) = _
  after_results

theorem w1_arg16 : W1 m ρ c (Proc.devRef .tc main_arg16) = m ((c : Thread nD τ).loc main_arg16) := by
  show StableHlo.after hostOps0 (W0 m ρ c) (Proc.devRef .tc main_arg16) = _
  after_results

theorem w1_v0 : (W1 m ρ c (Proc.devRef .tc main_v0) : S1x128.Idx → EReal)
    = shapeCast S1x128 (m ((c : Thread nD τ).loc main_arg11) : S128.Idx → EReal) shapeCasts_S128_S1x128 := by
  show StableHlo.after hostOps0 (W0 m ρ c) (Proc.devRef .tc main_v0) = _
  after_results
  rfl

theorem w1_v1 : (W1 m ρ c (Proc.devRef .tc main_v1) : S1x48.Idx → EReal)
    = shapeCast S1x48 (m ((c : Thread nD τ).loc main_arg13) : S48.Idx → EReal) shapeCasts_S48_S1x48 := by
  show StableHlo.after hostOps0 (W0 m ρ c) (Proc.devRef .tc main_v1) = _
  after_results
  rfl

theorem w1_v2 : (W1 m ρ c (Proc.devRef .tc main_v2) : S1x256.Idx → EReal)
    = shapeCast S1x256 (m ((c : Thread nD τ).loc main_arg15) : S256.Idx → EReal) shapeCasts_S256_S1x256 := by
  show StableHlo.after hostOps0 (W0 m ρ c) (Proc.devRef .tc main_v2) = _
  after_results
  rfl

theorem w1_v3 : (W1 m ρ c (Proc.devRef .tc main_v3) : S1x48.Idx → EReal)
    = shapeCast S1x48 (m ((c : Thread nD τ).loc main_arg17) : S48.Idx → EReal) shapeCasts_S48_S1x48 := by
  show StableHlo.after hostOps0 (W0 m ρ c) (Proc.devRef .tc main_v3) = _
  after_results
  rfl

/-! ## After the first launch -/

theorem w2_arg0 : W2 m ρ c (Proc.devRef .tc main_arg0) = m ((c : Thread nD τ).loc main_arg0) :=
  (W2_of_ne m ρ c main_arg0 (by decide)).trans (w1_arg0 m ρ c)

theorem w2_arg1 : W2 m ρ c (Proc.devRef .tc main_arg1) = m ((c : Thread nD τ).loc main_arg1) :=
  (W2_of_ne m ρ c main_arg1 (by decide)).trans (w1_arg1 m ρ c)

theorem w2_arg2 : W2 m ρ c (Proc.devRef .tc main_arg2) = m ((c : Thread nD τ).loc main_arg2) :=
  (W2_of_ne m ρ c main_arg2 (by decide)).trans (w1_arg2 m ρ c)

theorem w2_arg3 : W2 m ρ c (Proc.devRef .tc main_arg3) = m ((c : Thread nD τ).loc main_arg3) :=
  (W2_of_ne m ρ c main_arg3 (by decide)).trans (w1_arg3 m ρ c)

theorem w2_arg4 : W2 m ρ c (Proc.devRef .tc main_arg4) = m ((c : Thread nD τ).loc main_arg4) :=
  (W2_of_ne m ρ c main_arg4 (by decide)).trans (w1_arg4 m ρ c)

theorem w2_arg5 : W2 m ρ c (Proc.devRef .tc main_arg5) = m ((c : Thread nD τ).loc main_arg5) :=
  (W2_of_ne m ρ c main_arg5 (by decide)).trans (w1_arg5 m ρ c)

theorem w2_arg6 : W2 m ρ c (Proc.devRef .tc main_arg6) = m ((c : Thread nD τ).loc main_arg6) :=
  (W2_of_ne m ρ c main_arg6 (by decide)).trans (w1_arg6 m ρ c)

theorem w2_arg7 : W2 m ρ c (Proc.devRef .tc main_arg7) = m ((c : Thread nD τ).loc main_arg7) :=
  (W2_of_ne m ρ c main_arg7 (by decide)).trans (w1_arg7 m ρ c)

/-- The table of encoded books, of the arguments. -/
theorem w2_table : (W2 m ρ c (Proc.devRef .tc main_v4) : S100000x48.Idx → EReal)
    = bookTable (m ((c : Thread nD τ).loc main_arg9)) (m ((c : Thread nD τ).loc main_arg8)) (m ((c : Thread nD τ).loc main_arg10))
        (shapeCast S1x128 ((m ((c : Thread nD τ).loc main_arg11)) : S128.Idx → EReal) shapeCasts_S128_S1x128) (m ((c : Thread nD τ).loc main_arg12))
        (shapeCast S1x48 ((m ((c : Thread nD τ).loc main_arg13)) : S48.Idx → EReal) shapeCasts_S48_S1x48) (m ((c : Thread nD τ).loc main_arg14))
        (shapeCast S1x256 ((m ((c : Thread nD τ).loc main_arg15)) : S256.Idx → EReal) shapeCasts_S256_S1x256) (m ((c : Thread nD τ).loc main_arg16))
        (shapeCast S1x48 ((m ((c : Thread nD τ).loc main_arg17)) : S48.Idx → EReal) shapeCasts_S48_S1x48) := by
  refine (W2_arr m ρ c 10).trans ((bookFinal (V1 m ρ) c).trans ?_)
  show bookTable (W1 m ρ c (Proc.devRef .tc main_arg9)) (W1 m ρ c (Proc.devRef .tc main_arg8))
      (W1 m ρ c (Proc.devRef .tc main_arg10)) (W1 m ρ c (Proc.devRef .tc main_v0))
      (W1 m ρ c (Proc.devRef .tc main_arg12)) (W1 m ρ c (Proc.devRef .tc main_v1))
      (W1 m ρ c (Proc.devRef .tc main_arg14)) (W1 m ρ c (Proc.devRef .tc main_v2))
      (W1 m ρ c (Proc.devRef .tc main_arg16)) (W1 m ρ c (Proc.devRef .tc main_v3)) = _
  rw [w1_arg9, w1_arg8, w1_arg10, w1_arg12, w1_arg14, w1_arg16, w1_v0, w1_v1, w1_v2, w1_v3]

/-- Entry `(r, e)` of the table: the encoding of row `r` of the category and text tables. -/
theorem table_apply (r : Fin 100000) (e : Fin 48) :
    (W2 m ρ c (Proc.devRef .tc main_v4) : S100000x48.Idx → EReal) (ix2 r e)
      = encRow (fun k => ((m ((c : Thread nD τ).loc main_arg9)) : S100000x64.Idx → EReal) (ix2 r k)) (fun k => ((m ((c : Thread nD τ).loc main_arg8)) : S100000x384.Idx → EReal) (ix2 r k))
          (fun k j => ((m ((c : Thread nD τ).loc main_arg10)) : S64x128.Idx → EReal) (ix2 k j)) (fun j => ((m ((c : Thread nD τ).loc main_arg11)) : S128.Idx → EReal) (ix1 j))
          (fun j e => ((m ((c : Thread nD τ).loc main_arg12)) : S128x48.Idx → EReal) (ix2 j e)) (fun e => ((m ((c : Thread nD τ).loc main_arg13)) : S48.Idx → EReal) (ix1 e))
          (fun k j => ((m ((c : Thread nD τ).loc main_arg14)) : S384x256.Idx → EReal) (ix2 k j)) (fun j => ((m ((c : Thread nD τ).loc main_arg15)) : S256.Idx → EReal) (ix1 j))
          (fun j e => ((m ((c : Thread nD τ).loc main_arg16)) : S256x48.Idx → EReal) (ix2 j e)) (fun e => ((m ((c : Thread nD τ).loc main_arg17)) : S48.Idx → EReal) (ix1 e)) e := by
  rw [w2_table]
  unfold bookTable
  simp only [shapeCast_a_1a_apply]

/-! ## Between the launches: the gathered tables and the user rows -/

theorem w3_pos : (W3 m ρ c (Proc.devRef .tc main_v11) : S262144x48.Idx → EReal)
    = Host.gather gather_S100000x48_S262144x1_S262144x48_1_0_n_n_0_1_148
        (W2 m ρ c (Proc.devRef .tc main_v4)) (wrapIdx 100000#32 (m ((c : Thread nD τ).loc main_arg2))) := by
  show StableHlo.after hostOps1 (W2 m ρ c) (Proc.devRef .tc main_v11) = _
  after_results_simp
  rw [w2_arg2]
  rfl

theorem w3_neg : (W3 m ρ c (Proc.devRef .tc main_v18) : S262144x48.Idx → EReal)
    = Host.gather gather_S100000x48_S262144x1_S262144x48_1_0_n_n_0_1_148
        (W2 m ρ c (Proc.devRef .tc main_v4)) (wrapIdx 100000#32 (m ((c : Thread nD τ).loc main_arg3))) := by
  show StableHlo.after hostOps1 (W2 m ρ c) (Proc.devRef .tc main_v18) = _
  after_results_simp
  rw [w2_arg3]
  rfl

theorem w3_user : (W3 m ρ c (Proc.devRef .tc main_v53) : S262144x48.Idx → EReal)
    = userPre (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v53) = _
  after_results_simp
  rw [w2_arg0, w2_arg1, w2_arg4, w2_arg5, w2_arg6, w2_arg7]
  rfl

/-- Entry `(b, e)` of a table gathered at a column of start indices: the encoding of the row the index names. -/
theorem gathered_apply (idx : IVec S262144x1 32) (b : Fin 262144) (e : Fin 48) :
    Host.gather gather_S100000x48_S262144x1_S262144x48_1_0_n_n_0_1_148
        (W2 m ρ c (Proc.devRef .tc main_v4) : S100000x48.Idx → EReal) idx (ix2 b e)
      = encRow (fun k => ((m ((c : Thread nD τ).loc main_arg9)) : S100000x64.Idx → EReal) (ix2 (gatherRow 100000 books_pos idx b) k))
          (fun k => ((m ((c : Thread nD τ).loc main_arg8)) : S100000x384.Idx → EReal) (ix2 (gatherRow 100000 books_pos idx b) k))
          (fun k j => ((m ((c : Thread nD τ).loc main_arg10)) : S64x128.Idx → EReal) (ix2 k j)) (fun j => ((m ((c : Thread nD τ).loc main_arg11)) : S128.Idx → EReal) (ix1 j))
          (fun j e => ((m ((c : Thread nD τ).loc main_arg12)) : S128x48.Idx → EReal) (ix2 j e)) (fun e => ((m ((c : Thread nD τ).loc main_arg13)) : S48.Idx → EReal) (ix1 e))
          (fun k j => ((m ((c : Thread nD τ).loc main_arg14)) : S384x256.Idx → EReal) (ix2 k j)) (fun j => ((m ((c : Thread nD τ).loc main_arg15)) : S256.Idx → EReal) (ix1 j))
          (fun j e => ((m ((c : Thread nD τ).loc main_arg16)) : S256x48.Idx → EReal) (ix2 j e)) (fun e => ((m ((c : Thread nD τ).loc main_arg17)) : S48.Idx → EReal) (ix1 e)) e :=
  (gather_row_apply (N := 100000) (B := 262144) (D := 48) books_pos
      gather_S100000x48_S262144x1_S262144x48_1_0_n_n_0_1_148_wf _ idx b e).trans (table_apply m ρ c _ e)

/-! ## After the second launch, and the pairing -/

theorem w4_pos : (W4 m ρ c (Proc.devRef .tc main_v54_0) : S262144.Idx → EReal)
    = simTable (W3 m ρ c (Proc.devRef .tc main_v53)) (W3 m ρ c (Proc.devRef .tc main_v11)) :=
  (W4_arr m ρ c 3).trans (posFinal (V3 m ρ) c)

theorem w4_neg : (W4 m ρ c (Proc.devRef .tc main_v54_1) : S262144.Idx → EReal)
    = simTable (W3 m ρ c (Proc.devRef .tc main_v53)) (W3 m ρ c (Proc.devRef .tc main_v18)) :=
  (W4_arr m ρ c 4).trans (negFinal (V3 m ρ) c)

theorem w5_result : (W5 m ρ c (Proc.devRef .tc main_v57) : S262144x2.Idx → EReal)
    = concatenate S262144x2 1
        [⟨S262144x1, broadcastInDim S262144x1 ![0] bcast_S262144_S262144x1_0 (W4 m ρ c (Proc.devRef .tc main_v54_0) : S262144.Idx → EReal)⟩,
         ⟨S262144x1, broadcastInDim S262144x1 ![0] bcast_S262144_S262144x1_0 (W4 m ρ c (Proc.devRef .tc main_v54_1) : S262144.Idx → EReal)⟩]
        concatenates_S262144x1_S262144x1_S262144x2_d1 := by
  show StableHlo.after hostOps2 (W4 m ρ c) (Proc.devRef .tc main_v57) = _
  after_results

/-! ## The result -/

/-- A column of the result read at row `b`: the array it was made from, at `b`. -/
theorem column_apply (x : S262144.Idx → EReal) (b : Fin 262144) :
    broadcastInDim S262144x1 ![0] bcast_S262144_S262144x1_0 x (ix2 b (0 : Fin 1)) = x (ix1 b) :=
  broadcastInDim_apply _ bcast_S262144_S262144x1_0 x (ix2 b (0 : Fin 1)) (ix1 b) (fun a => match a with
    | ⟨0, _⟩ => by show b.val = if (262144 : Nat) = 1 then 0 else b.val; rw [if_neg (by decide)])

/-- THE RESULT of the kernel program is the specification's function of its arguments. -/
theorem result_eq : (W5 m ρ c (Proc.devRef .tc main_v57) : S262144x2.Idx → EReal)
    = outSpec (userPre (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)))
        (wrapIdx 100000#32 (m ((c : Thread nD τ).loc main_arg2))) (wrapIdx 100000#32 (m ((c : Thread nD τ).loc main_arg3)))
        (m ((c : Thread nD τ).loc main_arg9)) (m ((c : Thread nD τ).loc main_arg8)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  funext j
  obtain ⟨b, s, rfl⟩ : ∃ (b : Fin 262144) (s : Fin 2), j = ix2 b s := ⟨j 0, j 1, eq_ix2 j⟩
  rw [w5_result]
  match s with
  | ⟨0, _⟩ =>
    refine (concatenate_pair_apply_left (t := S262144x2) (s₁ := S262144x1) (s₂ := S262144x1) (1 : Fin 2) _ _
      concatenates_S262144x1_S262144x1_S262144x2_d1 (ix2 b (⟨0, by decide⟩ : Fin 2)) rfl (ix2 b (0 : Fin 1)) (fun a => ?_)).trans ?_
    · match a with
      | ⟨0, _⟩ => rfl
      | ⟨1, _⟩ => rfl
    rw [column_apply, w4_pos]
    show simRow (fun e => (W3 m ρ c (Proc.devRef .tc main_v53) : S262144x48.Idx → EReal) (ix2 b e))
        (fun e => (W3 m ρ c (Proc.devRef .tc main_v11) : S262144x48.Idx → EReal) (ix2 b e)) = _
    rw [w3_user, w3_pos]
    exact congrArg (simRow _) (funext fun e => gathered_apply m ρ c _ b e)
  | ⟨1, _⟩ =>
    refine (concatenate_pair_apply_right (t := S262144x2) (s₁ := S262144x1) (s₂ := S262144x1) (1 : Fin 2) _ _
      concatenates_S262144x1_S262144x1_S262144x2_d1 (ix2 b (⟨1, by decide⟩ : Fin 2)) rfl rfl (ix2 b (0 : Fin 1)) (fun a ha => ?_) rfl).trans ?_
    · match a with
      | ⟨0, _⟩ => rfl
      | ⟨1, _⟩ => exact absurd rfl ha
    rw [column_apply, w4_neg]
    show simRow (fun e => (W3 m ρ c (Proc.devRef .tc main_v53) : S262144x48.Idx → EReal) (ix2 b e))
        (fun e => (W3 m ρ c (Proc.devRef .tc main_v18) : S262144x48.Idx → EReal) (ix2 b e)) = _
    rw [w3_user, w3_neg]
    exact congrArg (simRow _) (funext fun e => gathered_apply m ρ c _ b e)

end Cert.KernelIdeal.Result

end
-- ==== Proof.RefValue.lean ====
/-
  What the reference program returns, as the specification's function of its arguments.

  The reference is one host program. It forms the user rows and scales each to unit length; for each of the two index
  arrays it gathers the category and text rows the indices name, sends them through the two towers, combines and
  scales the result to unit length; and it takes, row by row, the inner product of the user row with each encoded
  book row, divided by the temperature, pairing the two arrays as the two columns of its result.
  Each operation is read at an entry (the generated stage-by-stage reads); a matrix product is a sum over the
  contracted index, a row sum starts from the zero word, which adds nothing. The user rows before scaling and the
  wrapped index columns are the terms the kernel's program builds by the same operations, and are left closed.
-/
import proofs.«164708_j16157666967605_2_alg».proof.Proof.Gen.ReferenceIdeal.Read
import proofs.«164708_j16157666967605_2_alg».proof.Proof.ResultSpec
import proofs.«164708_j16157666967605_2_alg».proof.Proof.HostTerms
import Idealize.ShloMosaic.Lib.ValueLayout

set_option maxRecDepth 16384

noncomputable section

open scoped BigOperators

namespace Cert.ReferenceIdeal.RefValue

open Idealize.ShloMosaic Idealize.ShloMosaic.ValueIdx
open Cert.ReferenceIdeal Cert.ReferenceIdeal.Gen Cert.ReferenceIdeal.Read Cert.Spec
open Cert.KernelIdeal.HostTerms (wrapIdx userPre)

variable (x0 : (⟨S262144, .i32⟩ : BufTy).Contents (Elt Ideal)) (x1 : (⟨S262144, .i32⟩ : BufTy).Contents (Elt Ideal)) (x2 : (⟨S262144, .i32⟩ : BufTy).Contents (Elt Ideal)) (x3 : (⟨S262144, .i32⟩ : BufTy).Contents (Elt Ideal)) (x4 : (⟨S100000x48, .f32⟩ : BufTy).Contents (Elt Ideal)) (x5 : (⟨S100000x48, .f32⟩ : BufTy).Contents (Elt Ideal)) (x6 : (⟨S2000x48, .f32⟩ : BufTy).Contents (Elt Ideal)) (x7 : (⟨S2000x48, .f32⟩ : BufTy).Contents (Elt Ideal)) (x8 : (⟨S100000x384, .f32⟩ : BufTy).Contents (Elt Ideal)) (x9 : (⟨S100000x64, .f32⟩ : BufTy).Contents (Elt Ideal)) (x10 : (⟨S64x128, .f32⟩ : BufTy).Contents (Elt Ideal)) (x11 : (⟨S128, .f32⟩ : BufTy).Contents (Elt Ideal)) (x12 : (⟨S128x48, .f32⟩ : BufTy).Contents (Elt Ideal)) (x13 : (⟨S48, .f32⟩ : BufTy).Contents (Elt Ideal)) (x14 : (⟨S384x256, .f32⟩ : BufTy).Contents (Elt Ideal)) (x15 : (⟨S256, .f32⟩ : BufTy).Contents (Elt Ideal)) (x16 : (⟨S256x48, .f32⟩ : BufTy).Contents (Elt Ideal)) (x17 : (⟨S48, .f32⟩ : BufTy).Contents (Elt Ideal))

/-! ## The user rows -/

/-- The user rows before scaling are the kernel program's term. -/
theorem userRows : val_main_v34 (F := Ideal) x0 x1 x4 x5 x6 x7 = userPre x0 x1 x4 x5 x6 x7 := by
  unfold val_main_v34 val_main_v16 val_main_v15 val_main_cst val_main_v14 val_main_v6 val_main_v13
    val_main_v33 val_main_v32 val_main_cst_7 val_main_v31 val_main_v23 val_main_v30
    val_main_v5 val_main_v4 val_main_v1 val_main_v0 val_main_c val_main_v3 val_main_v2 val_main_c_0
    val_main_v12 val_main_v11 val_main_v8 val_main_v7 val_main_c_1 val_main_v10 val_main_v9 val_main_c_2
    val_main_v22 val_main_v21 val_main_v18 val_main_v17 val_main_c_3 val_main_v20 val_main_v19 val_main_c_4
    val_main_v29 val_main_v28 val_main_v25 val_main_v24 val_main_c_5 val_main_v27 val_main_v26 val_main_c_6
    userPre wrapIdx
  rfl

/-- The user rows scaled to unit length. -/
theorem userUnit (b : Fin 262144) (e : Fin 48) :
    val_main_v42 (F := Ideal) x0 x1 x4 x5 x6 x7 (ix2 b e) = normalize (fun e' => val_main_v34 (F := Ideal) x0 x1 x4 x5 x6 x7 (ix2 b e')) e := by
  rw [val_main_v42_apply, val_main_v41_apply, val_main_v40_apply, val_main_v39_apply, val_main_v37_apply, val_main_v36_apply, val_main_v38_apply, val_main_cst_9_apply, val_main_cst_8_apply]
  have ek : ∀ k : Fin 48, idx_main_v36 (idx_main_v37 (idx_main_v41 (ix2 b e))) k = ix2 b k := fun k => funext fun a => Fin.ext (by match a with | ⟨0, _⟩ => rfl | ⟨1, _⟩ => rfl)
  simp only [ek, val_main_v35_apply]
  simp only [Ideal.mulf_def, Ideal.hostUnary_rsqrt_def, Ideal.maximumf_def, Ideal.ofBits_def,
    Ideal.ofBits_zero_f32, zero_add]
  rfl

/-! ## The chain through the first index array -/

/-- The start indices of both gathers of this chain are the wrapped index column. -/
theorem idxCatPos : val_main_v48 (F := Ideal) x2 = wrapIdx 100000#32 x2 := by
  unfold val_main_v48 val_main_v47 val_main_v44 val_main_v43 val_main_c_10 val_main_v46 val_main_v45 val_main_c_11 wrapIdx
  rfl
theorem idxTxtPos : val_main_v55 (F := Ideal) x2 = wrapIdx 100000#32 x2 := by
  unfold val_main_v55 val_main_v54 val_main_v51 val_main_v50 val_main_c_12 val_main_v53 val_main_v52 val_main_c_13 wrapIdx
  rfl

/-- The gathered category rows: row `b` is the table's row that the index names. -/
theorem catRowsPos (b : Fin 262144) (k : Fin 64) :
    val_main_v49 (F := Ideal) x2 x9 (ix2 b k) = x9 (ix2 (gatherRow 100000 books_pos (wrapIdx 100000#32 x2) b) k) := by
  unfold val_main_v49
  rw [idxCatPos]
  exact gather_row_apply (N := 100000) (B := 262144) (D := 64) books_pos gather_S100000x64_S262144x1_S262144x64_1_0_n_n_0_1_164_wf x9 _ b k

/-- The gathered text rows. -/
theorem txtRowsPos (b : Fin 262144) (k : Fin 384) :
    val_main_v56 (F := Ideal) x2 x8 (ix2 b k) = x8 (ix2 (gatherRow 100000 books_pos (wrapIdx 100000#32 x2) b) k) := by
  unfold val_main_v56
  rw [idxTxtPos]
  exact gather_row_apply (N := 100000) (B := 262144) (D := 384) books_pos gather_S100000x384_S262144x1_S262144x384_1_0_n_n_0_1_1384_wf x8 _ b k

theorem catHiddenPos (b : Fin 262144) (j : Fin 128) :
    val_main_v61 (F := Ideal) x2 x9 x10 x11 (ix2 b j) = (hidden (fun k => x9 (ix2 (gatherRow 100000 books_pos (wrapIdx 100000#32 x2) b) k)) (fun k j => x10 (ix2 k j)) (fun j => x11 (ix1 j))) j := by
  rw [val_main_v61_apply, val_main_v60_apply, val_main_v57_apply, val_main_v59_apply, val_main_v58_apply, val_main_call0_v0_apply, val_main_call0_cst_apply]
  have el : ∀ k : Fin 64, lidx_main_v57 (ix2 b j) k = ix2 b k := fun k => funext fun a => Fin.ext (by match a with | ⟨0, _⟩ => rfl | ⟨1, _⟩ => rfl)
  have er : ∀ k : Fin 64, ridx_main_v57 (ix2 b j) k = ix2 k j := fun k => funext fun a => Fin.ext (by match a with | ⟨0, _⟩ => rfl | ⟨1, _⟩ => rfl)
  have eb : idx_main_v58 (idx_main_v59 (ix2 b j)) = ix1 j := funext fun a => Fin.ext (by match a with | ⟨0, _⟩ => rfl)
  simp only [el, er, eb, catRowsPos]
  rfl

theorem catTowerPos (b : Fin 262144) (e : Fin 48) :
    val_main_v65 (F := Ideal) x2 x9 x10 x11 x12 x13 (ix2 b e) = (layer2 (hidden (fun k => x9 (ix2 (gatherRow 100000 books_pos (wrapIdx 100000#32 x2) b) k)) (fun k j => x10 (ix2 k j)) (fun j => x11 (ix1 j))) (fun j e => x12 (ix2 j e)) (fun e => x13 (ix1 e))) e := by
  rw [val_main_v65_apply, val_main_v62_apply, val_main_v64_apply, val_main_v63_apply]
  have el : ∀ k : Fin 128, lidx_main_v62 (ix2 b e) k = ix2 b k := fun k => funext fun a => Fin.ext (by match a with | ⟨0, _⟩ => rfl | ⟨1, _⟩ => rfl)
  have er : ∀ k : Fin 128, ridx_main_v62 (ix2 b e) k = ix2 k e := fun k => funext fun a => Fin.ext (by match a with | ⟨0, _⟩ => rfl | ⟨1, _⟩ => rfl)
  have eb : idx_main_v63 (idx_main_v64 (ix2 b e)) = ix1 e := funext fun a => Fin.ext (by match a with | ⟨0, _⟩ => rfl)
  simp only [el, er, eb, catHiddenPos]
  rfl

theorem txtHiddenPos (b : Fin 262144) (j : Fin 256) :
    val_main_v70 (F := Ideal) x2 x8 x14 x15 (ix2 b j) = (hidden (fun k => x8 (ix2 (gatherRow 100000 books_pos (wrapIdx 100000#32 x2) b) k)) (fun k j => x14 (ix2 k j)) (fun j => x15 (ix1 j))) j := by
  rw [val_main_v70_apply, val_main_v69_apply, val_main_v66_apply, val_main_v68_apply, val_main_v67_apply, val_main_call1_v0_apply, val_main_call1_cst_apply]
  have el : ∀ k : Fin 384, lidx_main_v66 (ix2 b j) k = ix2 b k := fun k => funext fun a => Fin.ext (by match a with | ⟨0, _⟩ => rfl | ⟨1, _⟩ => rfl)
  have er : ∀ k : Fin 384, ridx_main_v66 (ix2 b j) k = ix2 k j := fun k => funext fun a => Fin.ext (by match a with | ⟨0, _⟩ => rfl | ⟨1, _⟩ => rfl)
  have eb : idx_main_v67 (idx_main_v68 (ix2 b j)) = ix1 j := funext fun a => Fin.ext (by match a with | ⟨0, _⟩ => rfl)
  simp only [el, er, eb, txtRowsPos]
  rfl

theorem txtTowerPos (b : Fin 262144) (e : Fin 48) :
    val_main_v74 (F := Ideal) x2 x8 x14 x15 x16 x17 (ix2 b e) = (layer2 (hidden (fun k => x8 (ix2 (gatherRow 100000 books_pos (wrapIdx 100000#32 x2) b) k)) (fun k j => x14 (ix2 k j)) (fun j => x15 (ix1 j))) (fun j e => x16 (ix2 j e)) (fun e => x17 (ix1 e))) e := by
  rw [val_main_v74_apply, val_main_v71_apply, val_main_v73_apply, val_main_v72_apply]
  have el : ∀ k : Fin 256, lidx_main_v71 (ix2 b e) k = ix2 b k := fun k => funext fun a => Fin.ext (by match a with | ⟨0, _⟩ => rfl | ⟨1, _⟩ => rfl)
  have er : ∀ k : Fin 256, ridx_main_v71 (ix2 b e) k = ix2 k e := fun k => funext fun a => Fin.ext (by match a with | ⟨0, _⟩ => rfl | ⟨1, _⟩ => rfl)
  have eb : idx_main_v72 (idx_main_v73 (ix2 b e)) = ix1 e := funext fun a => Fin.ext (by match a with | ⟨0, _⟩ => rfl)
  simp only [el, er, eb, txtHiddenPos]
  rfl

theorem combinedPos (b : Fin 262144) (e : Fin 48) :
    val_main_v79 (F := Ideal) x2 x8 x9 x10 x11 x12 x13 x14 x15 x16 x17 (ix2 b e) = combine (layer2 (hidden (fun k => x9 (ix2 (gatherRow 100000 books_pos (wrapIdx 100000#32 x2) b) k)) (fun k j => x10 (ix2 k j)) (fun j => x11 (ix1 j))) (fun j e => x12 (ix2 j e)) (fun e => x13 (ix1 e))) (layer2 (hidden (fun k => x8 (ix2 (gatherRow 100000 books_pos (wrapIdx 100000#32 x2) b) k)) (fun k j => x14 (ix2 k j)) (fun j => x15 (ix1 j))) (fun j e => x16 (ix2 j e)) (fun e => x17 (ix1 e))) e := by
  rw [val_main_v79_apply, val_main_v76_apply, val_main_v78_apply, val_main_v75_apply, val_main_cst_14_apply, val_main_v77_apply, val_main_cst_15_apply, catTowerPos, txtTowerPos]
  rfl

/-- The encoded book rows of this chain. -/
theorem encodedPos (b : Fin 262144) (e : Fin 48) :
    val_main_v87 (F := Ideal) x2 x8 x9 x10 x11 x12 x13 x14 x15 x16 x17 (ix2 b e) = (encRow (fun k => x9 (ix2 (gatherRow 100000 books_pos (wrapIdx 100000#32 x2) b) k)) (fun k => x8 (ix2 (gatherRow 100000 books_pos (wrapIdx 100000#32 x2) b) k)) (fun k j => x10 (ix2 k j)) (fun j => x11 (ix1 j)) (fun j e => x12 (ix2 j e)) (fun e => x13 (ix1 e)) (fun k j => x14 (ix2 k j)) (fun j => x15 (ix1 j)) (fun j e => x16 (ix2 j e)) (fun e => x17 (ix1 e))) e := by
  rw [val_main_v87_apply, val_main_v86_apply, val_main_v85_apply, val_main_v84_apply, val_main_v82_apply, val_main_v81_apply, val_main_v83_apply, val_main_cst_17_apply, val_main_cst_16_apply]
  have ek : ∀ k : Fin 48, idx_main_v81 (idx_main_v82 (idx_main_v86 (ix2 b e))) k = ix2 b k := fun k => funext fun a => Fin.ext (by match a with | ⟨0, _⟩ => rfl | ⟨1, _⟩ => rfl)
  simp only [ek, val_main_v80_apply, combinedPos]
  simp only [Ideal.mulf_def, Ideal.hostUnary_rsqrt_def, Ideal.maximumf_def, Ideal.ofBits_def,
    Ideal.ofBits_zero_f32, zero_add]
  rfl

/-- The similarities of this chain. -/
theorem simsPos (b : Fin 262144) :
    val_main_v136 (F := Ideal) x0 x1 x2 x4 x5 x6 x7 x8 x9 x10 x11 x12 x13 x14 x15 x16 x17 (ix1 b) = simRow (fun e => val_main_v34 (F := Ideal) x0 x1 x4 x5 x6 x7 (ix2 b e)) (encRow (fun k => x9 (ix2 (gatherRow 100000 books_pos (wrapIdx 100000#32 x2) b) k)) (fun k => x8 (ix2 (gatherRow 100000 books_pos (wrapIdx 100000#32 x2) b) k)) (fun k j => x10 (ix2 k j)) (fun j => x11 (ix1 j)) (fun j e => x12 (ix2 j e)) (fun e => x13 (ix1 e)) (fun k j => x14 (ix2 k j)) (fun j => x15 (ix1 j)) (fun j e => x16 (ix2 j e)) (fun e => x17 (ix1 e))) := by
  rw [val_main_v136_apply, val_main_v134_apply, val_main_v135_apply, val_main_cst_27_apply, val_main_cst_26_apply]
  have ek : ∀ k : Fin 48, idx_main_v134 (ix1 b) k = ix2 b k := fun k => funext fun a => Fin.ext (by match a with | ⟨0, _⟩ => rfl | ⟨1, _⟩ => rfl)
  simp only [ek, val_main_v133_apply, userUnit, encodedPos]
  simp only [simRow, Ideal.mulf_def, Ideal.hostDivf_def, Ideal.ofBits_def, Ideal.ofBits_zero_f32, zero_add]

/-! ## The chain through the second index array -/

/-- The start indices of both gathers of this chain are the wrapped index column. -/
theorem idxCatNeg : val_main_v93 (F := Ideal) x3 = wrapIdx 100000#32 x3 := by
  unfold val_main_v93 val_main_v92 val_main_v89 val_main_v88 val_main_c_18 val_main_v91 val_main_v90 val_main_c_19 wrapIdx
  rfl
theorem idxTxtNeg : val_main_v100 (F := Ideal) x3 = wrapIdx 100000#32 x3 := by
  unfold val_main_v100 val_main_v99 val_main_v96 val_main_v95 val_main_c_20 val_main_v98 val_main_v97 val_main_c_21 wrapIdx
  rfl

/-- The gathered category rows: row `b` is the table's row that the index names. -/
theorem catRowsNeg (b : Fin 262144) (k : Fin 64) :
    val_main_v94 (F := Ideal) x3 x9 (ix2 b k) = x9 (ix2 (gatherRow 100000 books_pos (wrapIdx 100000#32 x3) b) k) := by
  unfold val_main_v94
  rw [idxCatNeg]
  exact gather_row_apply (N := 100000) (B := 262144) (D := 64) books_pos gather_S100000x64_S262144x1_S262144x64_1_0_n_n_0_1_164_wf x9 _ b k

/-- The gathered text rows. -/
theorem txtRowsNeg (b : Fin 262144) (k : Fin 384) :
    val_main_v101 (F := Ideal) x3 x8 (ix2 b k) = x8 (ix2 (gatherRow 100000 books_pos (wrapIdx 100000#32 x3) b) k) := by
  unfold val_main_v101
  rw [idxTxtNeg]
  exact gather_row_apply (N := 100000) (B := 262144) (D := 384) books_pos gather_S100000x384_S262144x1_S262144x384_1_0_n_n_0_1_1384_wf x8 _ b k

theorem catHiddenNeg (b : Fin 262144) (j : Fin 128) :
    val_main_v106 (F := Ideal) x3 x9 x10 x11 (ix2 b j) = (hidden (fun k => x9 (ix2 (gatherRow 100000 books_pos (wrapIdx 100000#32 x3) b) k)) (fun k j => x10 (ix2 k j)) (fun j => x11 (ix1 j))) j := by
  rw [val_main_v106_apply, val_main_v105_apply, val_main_v102_apply, val_main_v104_apply, val_main_v103_apply, val_main_call2_v0_apply, val_main_call2_cst_apply]
  have el : ∀ k : Fin 64, lidx_main_v102 (ix2 b j) k = ix2 b k := fun k => funext fun a => Fin.ext (by match a with | ⟨0, _⟩ => rfl | ⟨1, _⟩ => rfl)
  have er : ∀ k : Fin 64, ridx_main_v102 (ix2 b j) k = ix2 k j := fun k => funext fun a => Fin.ext (by match a with | ⟨0, _⟩ => rfl | ⟨1, _⟩ => rfl)
  have eb : idx_main_v103 (idx_main_v104 (ix2 b j)) = ix1 j := funext fun a => Fin.ext (by match a with | ⟨0, _⟩ => rfl)
  simp only [el, er, eb, catRowsNeg]
  rfl

theorem catTowerNeg (b : Fin 262144) (e : Fin 48) :
    val_main_v110 (F := Ideal) x3 x9 x10 x11 x12 x13 (ix2 b e) = (layer2 (hidden (fun k => x9 (ix2 (gatherRow 100000 books_pos (wrapIdx 100000#32 x3) b) k)) (fun k j => x10 (ix2 k j)) (fun j => x11 (ix1 j))) (fun j e => x12 (ix2 j e)) (fun e => x13 (ix1 e))) e := by
  rw [val_main_v110_apply, val_main_v107_apply, val_main_v109_apply, val_main_v108_apply]
  have el : ∀ k : Fin 128, lidx_main_v107 (ix2 b e) k = ix2 b k := fun k => funext fun a => Fin.ext (by match a with | ⟨0, _⟩ => rfl | ⟨1, _⟩ => rfl)
  have er : ∀ k : Fin 128, ridx_main_v107 (ix2 b e) k = ix2 k e := fun k => funext fun a => Fin.ext (by match a with | ⟨0, _⟩ => rfl | ⟨1, _⟩ => rfl)
  have eb : idx_main_v108 (idx_main_v109 (ix2 b e)) = ix1 e := funext fun a => Fin.ext (by match a with | ⟨0, _⟩ => rfl)
  simp only [el, er, eb, catHiddenNeg]
  rfl

theorem txtHiddenNeg (b : Fin 262144) (j : Fin 256) :
    val_main_v115 (F := Ideal) x3 x8 x14 x15 (ix2 b j) = (hidden (fun k => x8 (ix2 (gatherRow 100000 books_pos (wrapIdx 100000#32 x3) b) k)) (fun k j => x14 (ix2 k j)) (fun j => x15 (ix1 j))) j := by
  rw [val_main_v115_apply, val_main_v114_apply, val_main_v111_apply, val_main_v113_apply, val_main_v112_apply, val_main_call3_v0_apply, val_main_call3_cst_apply]
  have el : ∀ k : Fin 384, lidx_main_v111 (ix2 b j) k = ix2 b k := fun k => funext fun a => Fin.ext (by match a with | ⟨0, _⟩ => rfl | ⟨1, _⟩ => rfl)
  have er : ∀ k : Fin 384, ridx_main_v111 (ix2 b j) k = ix2 k j := fun k => funext fun a => Fin.ext (by match a with | ⟨0, _⟩ => rfl | ⟨1, _⟩ => rfl)
  have eb : idx_main_v112 (idx_main_v113 (ix2 b j)) = ix1 j := funext fun a => Fin.ext (by match a with | ⟨0, _⟩ => rfl)
  simp only [el, er, eb, txtRowsNeg]
  rfl

theorem txtTowerNeg (b : Fin 262144) (e : Fin 48) :
    val_main_v119 (F := Ideal) x3 x8 x14 x15 x16 x17 (ix2 b e) = (layer2 (hidden (fun k => x8 (ix2 (gatherRow 100000 books_pos (wrapIdx 100000#32 x3) b) k)) (fun k j => x14 (ix2 k j)) (fun j => x15 (ix1 j))) (fun j e => x16 (ix2 j e)) (fun e => x17 (ix1 e))) e := by
  rw [val_main_v119_apply, val_main_v116_apply, val_main_v118_apply, val_main_v117_apply]
  have el : ∀ k : Fin 256, lidx_main_v116 (ix2 b e) k = ix2 b k := fun k => funext fun a => Fin.ext (by match a with | ⟨0, _⟩ => rfl | ⟨1, _⟩ => rfl)
  have er : ∀ k : Fin 256, ridx_main_v116 (ix2 b e) k = ix2 k e := fun k => funext fun a => Fin.ext (by match a with | ⟨0, _⟩ => rfl | ⟨1, _⟩ => rfl)
  have eb : idx_main_v117 (idx_main_v118 (ix2 b e)) = ix1 e := funext fun a => Fin.ext (by match a with | ⟨0, _⟩ => rfl)
  simp only [el, er, eb, txtHiddenNeg]
  rfl

theorem combinedNeg (b : Fin 262144) (e : Fin 48) :
    val_main_v124 (F := Ideal) x3 x8 x9 x10 x11 x12 x13 x14 x15 x16 x17 (ix2 b e) = combine (layer2 (hidden (fun k => x9 (ix2 (gatherRow 100000 books_pos (wrapIdx 100000#32 x3) b) k)) (fun k j => x10 (ix2 k j)) (fun j => x11 (ix1 j))) (fun j e => x12 (ix2 j e)) (fun e => x13 (ix1 e))) (layer2 (hidden (fun k => x8 (ix2 (gatherRow 100000 books_pos (wrapIdx 100000#32 x3) b) k)) (fun k j => x14 (ix2 k j)) (fun j => x15 (ix1 j))) (fun j e => x16 (ix2 j e)) (fun e => x17 (ix1 e))) e := by
  rw [val_main_v124_apply, val_main_v121_apply, val_main_v123_apply, val_main_v120_apply, val_main_cst_22_apply, val_main_v122_apply, val_main_cst_23_apply, catTowerNeg, txtTowerNeg]
  rfl

/-- The encoded book rows of this chain. -/
theorem encodedNeg (b : Fin 262144) (e : Fin 48) :
    val_main_v132 (F := Ideal) x3 x8 x9 x10 x11 x12 x13 x14 x15 x16 x17 (ix2 b e) = (encRow (fun k => x9 (ix2 (gatherRow 100000 books_pos (wrapIdx 100000#32 x3) b) k)) (fun k => x8 (ix2 (gatherRow 100000 books_pos (wrapIdx 100000#32 x3) b) k)) (fun k j => x10 (ix2 k j)) (fun j => x11 (ix1 j)) (fun j e => x12 (ix2 j e)) (fun e => x13 (ix1 e)) (fun k j => x14 (ix2 k j)) (fun j => x15 (ix1 j)) (fun j e => x16 (ix2 j e)) (fun e => x17 (ix1 e))) e := by
  rw [val_main_v132_apply, val_main_v131_apply, val_main_v130_apply, val_main_v129_apply, val_main_v127_apply, val_main_v126_apply, val_main_v128_apply, val_main_cst_25_apply, val_main_cst_24_apply]
  have ek : ∀ k : Fin 48, idx_main_v126 (idx_main_v127 (idx_main_v131 (ix2 b e))) k = ix2 b k := fun k => funext fun a => Fin.ext (by match a with | ⟨0, _⟩ => rfl | ⟨1, _⟩ => rfl)
  simp only [ek, val_main_v125_apply, combinedNeg]
  simp only [Ideal.mulf_def, Ideal.hostUnary_rsqrt_def, Ideal.maximumf_def, Ideal.ofBits_def,
    Ideal.ofBits_zero_f32, zero_add]
  rfl

/-- The similarities of this chain. -/
theorem simsNeg (b : Fin 262144) :
    val_main_v140 (F := Ideal) x0 x1 x3 x4 x5 x6 x7 x8 x9 x10 x11 x12 x13 x14 x15 x16 x17 (ix1 b) = simRow (fun e => val_main_v34 (F := Ideal) x0 x1 x4 x5 x6 x7 (ix2 b e)) (encRow (fun k => x9 (ix2 (gatherRow 100000 books_pos (wrapIdx 100000#32 x3) b) k)) (fun k => x8 (ix2 (gatherRow 100000 books_pos (wrapIdx 100000#32 x3) b) k)) (fun k j => x10 (ix2 k j)) (fun j => x11 (ix1 j)) (fun j e => x12 (ix2 j e)) (fun e => x13 (ix1 e)) (fun k j => x14 (ix2 k j)) (fun j => x15 (ix1 j)) (fun j e => x16 (ix2 j e)) (fun e => x17 (ix1 e))) := by
  rw [val_main_v140_apply, val_main_v138_apply, val_main_v139_apply, val_main_cst_29_apply, val_main_cst_28_apply]
  have ek : ∀ k : Fin 48, idx_main_v138 (ix1 b) k = ix2 b k := fun k => funext fun a => Fin.ext (by match a with | ⟨0, _⟩ => rfl | ⟨1, _⟩ => rfl)
  simp only [ek, val_main_v137_apply, userUnit, encodedNeg]
  simp only [simRow, Ideal.mulf_def, Ideal.hostDivf_def, Ideal.ofBits_def, Ideal.ofBits_zero_f32, zero_add]

/-! ## The result -/

/-- THE RESULT of the reference program is the specification's function of its arguments. -/
theorem result_eq : val_main_v143 (F := Ideal) x0 x1 x2 x3 x4 x5 x6 x7 x8 x9 x10 x11 x12 x13 x14 x15 x16 x17
    = outSpec (userPre x0 x1 x4 x5 x6 x7) (wrapIdx 100000#32 x2) (wrapIdx 100000#32 x3)
        x9 x8 x10 x11 x12 x13 x14 x15 x16 x17 := by
  funext j
  obtain ⟨b, s, rfl⟩ : ∃ (b : Fin 262144) (s : Fin 2), j = ix2 b s := ⟨j 0, j 1, eq_ix2 j⟩
  unfold val_main_v143
  match s with
  | ⟨0, _⟩ =>
    refine (concatenate_pair_apply_left (t := S262144x2) (s₁ := S262144x1) (s₂ := S262144x1) (1 : Fin 2) _ _
      concatenates_S262144x1_S262144x1_S262144x2_d1 (ix2 b (⟨0, by decide⟩ : Fin 2)) rfl (ix2 b (0 : Fin 1)) (fun a => ?_)).trans ?_
    · match a with
      | ⟨0, _⟩ => rfl
      | ⟨1, _⟩ => rfl
    rw [val_main_v141_apply]
    have ei : idx_main_v141 (ix2 b (0 : Fin 1)) = ix1 b := funext fun a => Fin.ext (by match a with | ⟨0, _⟩ => rfl)
    rw [ei, simsPos, userRows]
    rfl
  | ⟨1, _⟩ =>
    refine (concatenate_pair_apply_right (t := S262144x2) (s₁ := S262144x1) (s₂ := S262144x1) (1 : Fin 2) _ _
      concatenates_S262144x1_S262144x1_S262144x2_d1 (ix2 b (⟨1, by decide⟩ : Fin 2)) rfl rfl (ix2 b (0 : Fin 1)) (fun a ha => ?_) rfl).trans ?_
    · match a with
      | ⟨0, _⟩ => rfl
      | ⟨1, _⟩ => exact absurd rfl ha
    rw [val_main_v142_apply]
    have ei : idx_main_v142 (ix2 b (0 : Fin 1)) = ix1 b := funext fun a => Fin.ext (by match a with | ⟨0, _⟩ => rfl)
    rw [ei, simsNeg, userRows]
    rfl

end Cert.ReferenceIdeal.RefValue

end
-- ==== Proof.lean ====
/-
  The certificate: a two-tower recommender's similarity scores, computed two ways, are the same function of the inputs
  on the extended reals.

  The reference gathers, for each of 262144 lookups, a book's category and text rows, encodes the pair (two two-layer
  towers with a rectifier, combined as 3·cat + 1·txt, scaled to unit length), and takes the inner product with the
  unit-length user row, divided by the temperature — once for the positive and once for the negative book index.
  The kernel program encodes every one of the 100000 books once, in a first launch over blocks of 2000 rows, gathers
  rows of that encoded table at the same wrapped indices, and computes the similarities in a second launch over blocks
  of 4096 lookups. The two agree because the encoding acts on each row by itself: row r of the encoded table is the
  encoding of rows r of the inputs, so a row gathered from the encoded table is the encoding of the gathered rows.
  Nothing else separates the programs at this instance: a matrix product into a zero accumulator and the host's
  contraction are the same sum, a lane sum and the host's row sum are the same sum, a change of float format is the
  identity, the literals are the same words on both sides, and the user rows and index columns are built by the
  same host operations. No law used needs a finite operand, so the precondition is never opened.

  The frames of the two kernel programs are the generated ones; the reference's frame is its generated run with the
  result dropped; the idealization rewrote nothing, so `preserves` is trivial.
-/
import proofs.«164708_j16157666967605_2_alg».proof.Defs
import proofs.«164708_j16157666967605_2_alg».proof.Proof.Gen.Kernel
import proofs.«164708_j16157666967605_2_alg».proof.Proof.Gen.Kernel.Skeleton
import proofs.«164708_j16157666967605_2_alg».proof.Proof.Gen.Kernel.Launch
import proofs.«164708_j16157666967605_2_alg».proof.Proof.Gen.Kernel.Points
import proofs.«164708_j16157666967605_2_alg».proof.Proof.Gen.Kernel.Frame
import proofs.«164708_j16157666967605_2_alg».proof.Proof.Gen.KernelIdeal
import proofs.«164708_j16157666967605_2_alg».proof.Proof.Gen.KernelIdeal.Skeleton
import proofs.«164708_j16157666967605_2_alg».proof.Proof.Gen.KernelIdeal.Launch
import proofs.«164708_j16157666967605_2_alg».proof.Proof.Gen.KernelIdeal.Points
import proofs.«164708_j16157666967605_2_alg».proof.Proof.Gen.KernelIdeal.Frame
import proofs.«164708_j16157666967605_2_alg».proof.Proof.Gen.ReferenceIdeal
import proofs.«164708_j16157666967605_2_alg».proof.Proof.Gen.ReferenceIdeal.Run
import proofs.«164708_j16157666967605_2_alg».proof.Proof.Gen.ReferenceIdeal.Read
import proofs.«164708_j16157666967605_2_alg».proof.Proof.Gen.Pre_finite_inputs
import proofs.«164708_j16157666967605_2_alg».proof.Proof.KernelRun
import proofs.«164708_j16157666967605_2_alg».proof.Proof.KernelValue
import proofs.«164708_j16157666967605_2_alg».proof.Proof.RefValue
import Idealize.ShloMosaic.Adequacy
import Idealize.ShloMosaic.Init

noncomputable section

namespace Cert.Proof

open Idealize.ShloMosaic Idealize.ShloMosaic.TcCoe Idealize.SL.Sem
open Cert.KernelIdeal.HostTerms (wrapIdx userPre)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's function of the (shared) arguments in their result buffers. -/
theorem algebraic : Cert.algebraic_KernelIdeal_ReferenceIdeal := by
  intro m ρ m' ρ' _ hagree
  refine ⟨fun c => Cert.Spec.outSpec
      (userPre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      (wrapIdx 100000#32 (m ((c.tc : Thread Cert.KernelIdeal.nD Cert.KernelIdeal.τ).loc Cert.KernelIdeal.main_arg2))) (wrapIdx 100000#32 (m ((c.tc : Thread Cert.KernelIdeal.nD Cert.KernelIdeal.τ).loc Cert.KernelIdeal.main_arg3)))
      (m ((c.tc : Thread Cert.KernelIdeal.nD Cert.KernelIdeal.τ).loc Cert.KernelIdeal.main_arg9)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run (Cert.KernelIdeal.defs (F := Ideal)) _ _).mono
      (fun r h c => ⟨(h c).1.trans (Cert.KernelIdeal.Result.result_eq m ρ c), (h c).2⟩)
      (Cert.KernelIdeal.Run.run_result (F := Ideal) m ρ)
  · refine (θ_run (Cert.ReferenceIdeal.defs (F := Ideal)) _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17⟩ := hagree c
    rw [Cert.ReferenceIdeal.Read.val_main_v143_eq, Cert.ReferenceIdeal.RefValue.result_eq,
      h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
